-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S2x2000000 : Shape := ⟨2, ![2, 2000000]⟩
abbrev S500000 : Shape := ⟨1, ![500000]⟩
abbrev S2x50000 : Shape := ⟨2, ![2, 50000]⟩
abbrev S64x64 : Shape := ⟨2, ![64, 64]⟩
abbrev S64 : Shape := ⟨1, ![64]⟩
abbrev S128x256 : Shape := ⟨2, ![128, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S256x1 .f32) (main_arg11 : FVec F S1 .f32) (main_v33 : IVec S_ 1) : IVec S_ 1 :=
  let main_v34 : FVec F S256x1 .f32 := Host.absf main_arg10
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S64 .f32) (main_arg8 : FVec F S128x256 .f32) (main_arg9 : FVec F S256 .f32) (main_arg10 : FVec F S256x1 .f32) (main_arg11 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x256 .f32 := Host.absf main_arg8
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg10 main_arg11 main_v33

def fn {F : FTy → Type} [FloatOps F] (main_arg0 : FVec F S500000x64 .f32) (main_arg1 : IVec S2x2000000 32) (main_arg2 : IVec S500000 32) (main_arg3 : IVec S2x50000 32) (main_arg4 : FVec F S64x64 .f32) (main_arg5 : FVec F S64 .f32) (main_arg6 : FVec F S64x64 .f32) (main_arg7 : FVec F S64 .f32) (main_arg8 : FVec F S128x256 .f32) (main_arg9 : FVec F S256 .f32) (main_arg10 : FVec F S256x1 .f32) (main_arg11 : FVec F S1 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_arg10 main_arg11 main_v13 main_v16
-- ==== Kernel.lean ====
abbrev S500000x64 : Shape := ⟨2, ![500000, 64]⟩
abbrev S2x2000000 : Shape := ⟨2, ![2, 2000000]⟩
abbrev S500000 : Shape := ⟨1, ![500000]⟩
abbrev S2x50000 : Shape := ⟨2, ![2, 50000]⟩
abbrev S64x64 : Shape := ⟨2, ![64, 64]⟩
abbrev S64 : Shape := ⟨1, ![64]⟩
abbrev S128x256 : Shape := ⟨2, ![128, 256]⟩
abbrev S256 : Shape := ⟨1, ![256]⟩
abbrev S256x1 : Shape := ⟨2, ![256, 1]⟩
abbrev S1 : Shape := ⟨1, ![1]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S10000x64 : Shape := ⟨2, ![10000, 64]⟩
abbrev S2000000x64 : Shape := ⟨2, ![2000000, 64]⟩
abbrev S500000x1 : Shape := ⟨2, ![500000, 1]⟩
abbrev S1x64 : Shape := ⟨2, ![1, 64]⟩
abbrev S20000x64 : Shape := ⟨2, ![20000, 64]⟩
abbrev S20000 : Shape := ⟨1, ![20000]⟩
abbrev S20000x1 : Shape := ⟨2, ![20000, 1]⟩
abbrev S1x50000 : Shape := ⟨2, ![1, 50000]⟩
abbrev S50000 : Shape := ⟨1, ![50000]⟩
abbrev S50000x1 : Shape := ⟨2, ![50000, 1]⟩
abbrev S50000x64 : Shape := ⟨2, ![50000, 64]⟩
abbrev S50000x128 : Shape := ⟨2, ![50000, 128]⟩
abbrev S1x256 : Shape := ⟨2, ![1, 256]⟩
abbrev S1x1 : Shape := ⟨2, ![1, 1]⟩
abbrev S5000x128 : Shape := ⟨2, ![5000, 128]⟩
abbrev S5000x1 : Shape := ⟨2, ![5000, 1]⟩
abbrev S5000x256 : Shape := ⟨2, ![5000, 256]⟩

abbrev nBuf : Space → Nat
  | .hbm => 135
  | .vmem => 24
  | .smem => 0
  | _ => 0

abbrev hbmTy0_0 (i : Nat) : BufTy := match i % 128 with
  | 0 => ⟨S500000x64, .f32⟩
  | 1 => ⟨S2x2000000, .i32⟩
  | 2 => ⟨S500000, .i32⟩
  | 3 => ⟨S2x50000, .i32⟩
  | 4 => ⟨S64x64, .f32⟩
  | 5 => ⟨S64, .f32⟩
  | 6 => ⟨S64x64, .f32⟩
  | 7 => ⟨S64, .f32⟩
  | 8 => ⟨S128x256, .f32⟩
  | 9 => ⟨S256, .f32⟩
  | 10 => ⟨S256x1, .f32⟩
  | 11 => ⟨S1, .f32⟩
  | 12 => ⟨S1x2000000, .i32⟩
  | 13 => ⟨S2000000, .i32⟩
  | 14 => ⟨S1x2000000, .i32⟩
  | 15 => ⟨S2000000, .i32⟩
  | 16 => ⟨S_, .f32⟩
  | 17 => ⟨S2000000, .f32⟩
  | 18 => ⟨S_, .f32⟩
  | 19 => ⟨S500000, .f32⟩
  | 20 => ⟨S2000000x1, .i32⟩
  | 21 => ⟨S500000, .f32⟩
  | 22 => ⟨S_, .f32⟩
  | 23 => ⟨S500000, .f32⟩
  | 24 => ⟨S500000, .f32⟩
  | 25 => ⟨S500000, .f32⟩
  | 26 => ⟨S_, .i32⟩
  | 27 => ⟨S2000000, .i32⟩
  | 28 => ⟨S2000000, .i1⟩
  | 29 => ⟨S_, .i32⟩
  | 30 => ⟨S2000000, .i32⟩
  | 31 => ⟨S2000000, .i32⟩
  | 32 => ⟨S2000000, .i32⟩
  | 33 => ⟨S2000000x1, .i32⟩
  | 34 => ⟨S2000000, .f32⟩
  | 35 => ⟨S_, .i32⟩
  | 36 => ⟨S2000000, .i32⟩
  | 37 => ⟨S2000000, .i1⟩
  | 38 => ⟨S_, .i32⟩
  | 39 => ⟨S2000000, .i32⟩
  | 40 => ⟨S2000000, .i32⟩
  | 41 => ⟨S2000000, .i32⟩
  | 42 => ⟨S2000000x1, .i32⟩
  | 43 => ⟨S2000000, .f32⟩
  | 44 => ⟨S2000000, .f32⟩
  | 45 => ⟨S_, .f32⟩
  | 46 => ⟨S500000, .f32⟩
  | 47 => ⟨S500000, .f32⟩
  | 48 => ⟨S500000x64, .f32⟩
  | 49 => ⟨S_, .i32⟩
  | 50 => ⟨S2000000, .i32⟩
  | 51 => ⟨S2000000, .i1⟩
  | 52 => ⟨S_, .i32⟩
  | 53 => ⟨S2000000, .i32⟩
  | 54 => ⟨S2000000, .i32⟩
  | 55 => ⟨S2000000, .i32⟩
  | 56 => ⟨S2000000x1, .i32⟩
  | 57 => ⟨S2000000x64, .f32⟩
  | 58 => ⟨S2000000x1, .f32⟩
  | 59 => ⟨S2000000x64, .f32⟩
  | 60 => ⟨S2000000x64, .f32⟩
  | 61 => ⟨S_, .f32⟩
  | 62 => ⟨S500000x64, .f32⟩
  | 63 => ⟨S2000000x1, .i32⟩
  | 64 => ⟨S500000x64, .f32⟩
  | 65 => ⟨S500000x1, .f32⟩
  | 66 => ⟨S500000x64, .f32⟩
  | 67 => ⟨S500000x64, .f32⟩
  | 68 => ⟨S500000x64, .f32⟩
  | 69 => ⟨S1x64, .f32⟩
  | 70 => ⟨S500000x64, .f32⟩
  | 71 => ⟨S_, .i32⟩
  | 72 => ⟨S2000000, .i32⟩
  | 73 => ⟨S2000000, .i1⟩
  | 74 => ⟨S_, .i32⟩
  | 75 => ⟨S2000000, .i32⟩
  | 76 => ⟨S2000000, .i32⟩
  | 77 => ⟨S2000000, .i32⟩
  | 78 => ⟨S2000000x1, .i32⟩
  | 79 => ⟨S2000000x64, .f32⟩
  | 80 => ⟨S2000000x1, .f32⟩
  | 81 => ⟨S2000000x64, .f32⟩
  | 82 => ⟨S2000000x64, .f32⟩
  | 83 => ⟨S_, .f32⟩
  | 84 => ⟨S500000x64, .f32⟩
  | 85 => ⟨S2000000x1, .i32⟩
  | 86 => ⟨S500000x64, .f32⟩
  | 87 => ⟨S500000x1, .f32⟩
  | 88 => ⟨S500000x64, .f32⟩
  | 89 => ⟨S500000x64, .f32⟩
  | 90 => ⟨S500000x64, .f32⟩
  | 91 => ⟨S1x64, .f32⟩
  | 92 => ⟨S500000x64, .f32⟩
  | 93 => ⟨S_, .f32⟩
  | 94 => ⟨S20000x64, .f32⟩
  | 95 => ⟨S500000x1, .i32⟩
  | 96 => ⟨S20000x64, .f32⟩
  | 97 => ⟨S_, .f32⟩
  | 98 => ⟨S500000, .f32⟩
  | 99 => ⟨S_, .f32⟩
  | 100 => ⟨S20000, .f32⟩
  | 101 => ⟨S500000x1, .i32⟩
  | 102 => ⟨S20000, .f32⟩
  | 103 => ⟨S_, .f32⟩
  | 104 => ⟨S20000, .f32⟩
  | 105 => ⟨S20000, .f32⟩
  | 106 => ⟨S20000x1, .f32⟩
  | 107 => ⟨S20000x64, .f32⟩
  | 108 => ⟨S20000x64, .f32⟩
  | 109 => ⟨S1x50000, .i32⟩
  | 110 => ⟨S50000, .i32⟩
  | 111 => ⟨S_, .i32⟩
  | 112 => ⟨S50000, .i32⟩
  | 113 => ⟨S50000, .i1⟩
  | 114 => ⟨S_, .i32⟩
  | 115 => ⟨S50000, .i32⟩
  | 116 => ⟨S50000, .i32⟩
  | 117 => ⟨S50000, .i32⟩
  | 118 => ⟨S50000x1, .i32⟩
  | 119 => ⟨S50000x64, .f32⟩
  | 120 => ⟨S1x50000, .i32⟩
  | 121 => ⟨S50000, .i32⟩
  | 122 => ⟨S_, .i32⟩
  | 123 => ⟨S50000, .i32⟩
  | 124 => ⟨S50000, .i1⟩
  | 125 => ⟨S_, .i32⟩
  | 126 => ⟨S50000, .i32⟩
  | 127 => ⟨S50000, .i32⟩
  | _ => ⟨S500000x64, .f32⟩

abbrev hbmTy0_1 (i : Nat) : BufTy := match i % 128 with
  | 0 => ⟨S50000, .i32⟩
  | 1 => ⟨S50000x1, .i32⟩
  | 2 => ⟨S50000x64, .f32⟩
  | 3 => ⟨S50000x128, .f32⟩
  | 4 => ⟨S1x256, .f32⟩
  | 5 => ⟨S1x1, .f32⟩
  | 6 => ⟨S50000x1, .f32⟩
  | _ => ⟨S500000x64, .f32⟩

abbrev hbmTy (i : Nat) : BufTy := match i / 128 with
  | 0 => hbmTy0_0 i
  | 1 => hbmTy0_1 i
  | _ => ⟨S500000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S10000x64, .f32⟩
  | .local _ .vmem, ⟨15, _⟩ => ⟨S10000x64, .f32⟩
  | .local _ .vmem, ⟨16, _⟩ => ⟨S5000x128, .f32⟩
  | .local _ .vmem, ⟨17, _⟩ => ⟨S5000x128, .f32⟩
  | .local _ .vmem, ⟨18, _⟩ => ⟨S128x256, .f32⟩
  | .local _ .vmem, ⟨19, _⟩ => ⟨S1x256, .f32⟩
  | .local _ .vmem, ⟨20, _⟩ => ⟨S256x1, .f32⟩
  | .local _ .vmem, ⟨21, _⟩ => ⟨S1x1, .f32⟩
  | .local _ .vmem, ⟨22, _⟩ => ⟨S5000x1, .f32⟩
  | .local _ .vmem, ⟨23, _⟩ => ⟨S5000x1, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_c_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_c_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_12 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_13 : Ref sig .tc := ⟨.hbm, 97, rfl⟩
abbrev main_v70 : Ref sig .tc := ⟨.hbm, 98, rfl⟩
abbrev main_cst_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_15 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_c_16 : Ref sig .tc := ⟨.hbm, 111, rfl⟩
abbrev main_v81 : Ref sig .tc := ⟨.hbm, 112, rfl⟩
abbrev main_v82 : Ref sig .tc := ⟨.hbm, 113, rfl⟩
abbrev main_c_17 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_c_18 : Ref sig .tc := ⟨.hbm, 122, rfl⟩
abbrev main_v90 : Ref sig .tc := ⟨.hbm, 123, rfl⟩
abbrev main_v91 : Ref sig .tc := ⟨.hbm, 124, rfl⟩
abbrev main_c_19 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem4_0 : DmaSem sig := 21
abbrev cc3_sem5_0 : DmaSem sig := 22
abbrev cc3_sem5_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S500000 : S_.BroadcastsInDim S500000 (![] : Fin 0 → Fin S500000.rank)
  bcast_S2000000_S2000000x1_0 : S2000000.BroadcastsInDim S2000000x1 (![0] : Fin 1 → Fin S2000000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S2000000x1_S2000000x64_0_1 : S2000000x1.BroadcastsInDim S2000000x64 (![0, 1] : Fin 2 → Fin S2000000x64.rank)
  bcast_S_S500000x64 : S_.BroadcastsInDim S500000x64 (![] : Fin 0 → Fin S500000x64.rank)
  bcast_S500000_S500000x1_0 : S500000.BroadcastsInDim S500000x1 (![0] : Fin 1 → Fin S500000x1.rank)
  bcast_S500000x1_S500000x64_0_1 : S500000x1.BroadcastsInDim S500000x64 (![0, 1] : Fin 2 → Fin S500000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S20000x64 : S_.BroadcastsInDim S20000x64 (![] : Fin 0 → Fin S20000x64.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  slices_S2x50000_S1x50000_0_0 : S2x50000.Slices ![0, 0] S1x50000
  shapeCasts_S1x50000_S50000 : S1x50000.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S2x50000_S1x50000_1_0 : S2x50000.Slices ![1, 0] S1x50000
  concatenates_S50000x64_S50000x64_S50000x128_d1 : Shape.Concatenates [S50000x64, S50000x64] S50000x128 1
  shapeCasts_S256_S1x256 : S256.ShapeCasts S1x256
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S500000_S2000000x1_S2000000_n_0_0_1_wf : ScatterDims.WF S500000 S2000000x1 S2000000 [] [0] [0] 1
  gather_S500000_S2000000x1_S2000000_n_0_n_n_0_1_1_wf : GatherDims.WF S500000 S2000000x1 S2000000 [] [0] [] [0] [] 1 ![1]
  dot_S10000x64_S64x64_S10000x64_1_0_0_1_n_n_wf : DotDims.WF S10000x64 S64x64 S10000x64 [1] [0] [0] [1] [] []
  gather_S500000x64_S2000000x1_S2000000x64_1_0_n_n_0_1_164_wf : GatherDims.WF S500000x64 S2000000x1 S2000000x64 [1] [0] [] [0] [] 1 ![1, 64]
  scatter_S500000x64_S2000000x1_S2000000x64_1_0_0_1_wf : ScatterDims.WF S500000x64 S2000000x1 S2000000x64 [1] [0] [0] 1
  scatter_S20000x64_S500000x1_S500000x64_1_0_0_1_wf : ScatterDims.WF S20000x64 S500000x1 S500000x64 [1] [0] [0] 1
  scatter_S20000_S500000x1_S500000_n_0_0_1_wf : ScatterDims.WF S20000 S500000x1 S500000 [] [0] [0] 1
  gather_S20000x64_S50000x1_S50000x64_1_0_n_n_0_1_164_wf : GatherDims.WF S20000x64 S50000x1 S50000x64 [1] [0] [] [0] [] 1 ![1, 64]
  dot_S5000x128_S128x256_S5000x256_1_0_0_1_n_n_wf : DotDims.WF S5000x128 S128x256 S5000x256 [1] [0] [0] [1] [] []
  dot_S5000x256_S256x1_S5000x1_1_0_0_1_n_n_wf : DotDims.WF S5000x256 S256x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S500000x64.size a
  hwx0_0 : ∀ i : grid0.Coords, EltTy.bits .f32 = 32 ∨ (Rect.block (s := S500000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S500000x64.size a
  hwx0_2 : ∀ i : grid0.Coords, EltTy.bits .f32 = 32 ∨ (Rect.block (s := S500000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S500000x64.size a
  hwx1_0 : ∀ i : grid1.Coords, EltTy.bits .f32 = 32 ∨ (Rect.block (s := S500000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S500000x64.size a
  hwx1_3 : ∀ i : grid1.Coords, EltTy.bits .f32 = 32 ∨ (Rect.block (s := S500000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S500000x64.size a
  hwx2_0 : ∀ i : grid2.Coords, EltTy.bits .f32 = 32 ∨ (Rect.block (s := S500000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S500000x64.size a
  hwx2_2 : ∀ i : grid2.Coords, EltTy.bits .f32 = 32 ∨ (Rect.block (s := S500000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x256.size a ≤ S128x256.size a
  hwx3_1 : ∀ i : grid3.Coords, EltTy.bits .f32 = 32 ∨ (Rect.block (s := S128x256) S128x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x1.size a ≤ S256x1.size a
  hwx3_3 : ∀ i : grid3.Coords, EltTy.bits .f32 = 32 ∨ (Rect.block (s := S256x1) S256x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1.size a ≤ S1x1.size a
  hwx3_4 : ∀ i : grid3.Coords, EltTy.bits .f32 = 32 ∨ (Rect.block (s := S1x1) S1x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x1.size a ≤ S50000x1.size a
  hwx3_5 : ∀ i : grid3.Coords, EltTy.bits .f32 = 32 ∨ (Rect.block (s := S50000x1) S5000x1.size (cc3_transform_5 i) (hinb3_5 i)).WholeWords (EltTy.packing .f32)

variable [Facts₀]

def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def gather_S500000_S2000000x1_S2000000_n_0_n_n_0_1_1 : GatherDims S500000 S2000000x1 S2000000 where
  offsetDims := []
  collapsedSliceDims := [0]
  operandBatchingDims := []
  startIndicesBatchingDims := []
  startIndexMap := [0]
  indexVectorDim := 1
  sliceSizes := ![1]
  wf := gather_S500000_S2000000x1_S2000000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S500000x64_S2000000x1_S2000000x64_1_0_n_n_0_1_164 : GatherDims S500000x64 S2000000x1 S2000000x64 where
  offsetDims := [1]
  collapsedSliceDims := [0]
  operandBatchingDims := []
  startIndicesBatchingDims := []
  startIndexMap := [0]
  indexVectorDim := 1
  sliceSizes := ![1, 64]
  wf := gather_S500000x64_S2000000x1_S2000000x64_1_0_n_n_0_1_164_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf
def scatter_S20000x64_S500000x1_S500000x64_1_0_0_1 : ScatterDims S20000x64 S500000x1 S500000x64 where
  updateWindowDims := [1]
  insertedWindowDims := [0]
  scatterDimsToOperandDims := [0]
  indexVectorDim := 1
  wf := scatter_S20000x64_S500000x1_S500000x64_1_0_0_1_wf
def scatter_S20000_S500000x1_S500000_n_0_0_1 : ScatterDims S20000 S500000x1 S500000 where
  updateWindowDims := []
  insertedWindowDims := [0]
  scatterDimsToOperandDims := [0]
  indexVectorDim := 1
  wf := scatter_S20000_S500000x1_S500000_n_0_0_1_wf
def gather_S20000x64_S50000x1_S50000x64_1_0_n_n_0_1_164 : GatherDims S20000x64 S50000x1 S50000x64 where
  offsetDims := [1]
  collapsedSliceDims := [0]
  operandBatchingDims := []
  startIndicesBatchingDims := []
  startIndexMap := [0]
  indexVectorDim := 1
  sliceSizes := ![1, 64]
  wf := gather_S20000x64_S50000x1_S50000x64_1_0_n_n_0_1_164_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def dot_S5000x256_S256x1_S5000x1_1_0_0_1_n_n : DotDims S5000x256 S256x1 S5000x1 where
  lhsContracting := [1]
  rhsContracting := [0]
  lhsNonContracting := [0]
  rhsNonContracting := [1]
  lhsBatch := []
  rhsBatch := []
  wf := dot_S5000x256_S256x1_S5000x1_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v64) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v66) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v97) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S128x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v98) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S256x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v99) S1x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v100) S5000x1.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S500000x64 : Shape := ⟨2, ![500000, 64]⟩
abbrev S2x2000000 : Shape := ⟨2, ![2, 2000000]⟩
abbrev S500000 : Shape := ⟨1, ![500000]⟩
abbrev S2x50000 : Shape := ⟨2, ![2, 50000]⟩
abbrev S64x64 : Shape := ⟨2, ![64, 64]⟩
abbrev S64 : Shape := ⟨1, ![64]⟩
abbrev S128x256 : Shape := ⟨2, ![128, 256]⟩
abbrev S256 : Shape := ⟨1, ![256]⟩
abbrev S256x1 : Shape := ⟨2, ![256, 1]⟩
abbrev S1 : Shape := ⟨1, ![1]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x64 : Shape := ⟨2, ![2000000, 64]⟩
abbrev S500000x1 : Shape := ⟨2, ![500000, 1]⟩
abbrev S1x64 : Shape := ⟨2, ![1, 64]⟩
abbrev S20000x64 : Shape := ⟨2, ![20000, 64]⟩
abbrev S20000 : Shape := ⟨1, ![20000]⟩
abbrev S20000x1 : Shape := ⟨2, ![20000, 1]⟩
abbrev S1x50000 : Shape := ⟨2, ![1, 50000]⟩
abbrev S50000 : Shape := ⟨1, ![50000]⟩
abbrev S50000x1 : Shape := ⟨2, ![50000, 1]⟩
abbrev S50000x64 : Shape := ⟨2, ![50000, 64]⟩
abbrev S50000x128 : Shape := ⟨2, ![50000, 128]⟩
abbrev S50000x256 : Shape := ⟨2, ![50000, 256]⟩
abbrev S1x256 : Shape := ⟨2, ![1, 256]⟩
abbrev S1x1 : Shape := ⟨2, ![1, 1]⟩

abbrev nBuf : Space → Nat
  | .hbm => 184
  | .vmem => 0
  | .smem => 0
  | _ => 0

abbrev hbmTy0_0 (i : Nat) : BufTy := match i % 128 with
  | 0 => ⟨S500000x64, .f32⟩
  | 1 => ⟨S2x2000000, .i32⟩
  | 2 => ⟨S500000, .i32⟩
  | 3 => ⟨S2x50000, .i32⟩
  | 4 => ⟨S64x64, .f32⟩
  | 5 => ⟨S64, .f32⟩
  | 6 => ⟨S64x64, .f32⟩
  | 7 => ⟨S64, .f32⟩
  | 8 => ⟨S128x256, .f32⟩
  | 9 => ⟨S256, .f32⟩
  | 10 => ⟨S256x1, .f32⟩
  | 11 => ⟨S1, .f32⟩
  | 12 => ⟨S1x2000000, .i32⟩
  | 13 => ⟨S2000000, .i32⟩
  | 14 => ⟨S1x2000000, .i32⟩
  | 15 => ⟨S2000000, .i32⟩
  | 16 => ⟨S500000x64, .f32⟩
  | 17 => ⟨S_, .f32⟩
  | 18 => ⟨S2000000, .f32⟩
  | 19 => ⟨S_, .f32⟩
  | 20 => ⟨S500000, .f32⟩
  | 21 => ⟨S2000000x1, .i32⟩
  | 22 => ⟨S500000, .f32⟩
  | 23 => ⟨S_, .f32⟩
  | 24 => ⟨S500000, .f32⟩
  | 25 => ⟨S500000, .f32⟩
  | 26 => ⟨S500000, .f32⟩
  | 27 => ⟨S_, .i32⟩
  | 28 => ⟨S2000000, .i32⟩
  | 29 => ⟨S2000000, .i1⟩
  | 30 => ⟨S_, .i32⟩
  | 31 => ⟨S2000000, .i32⟩
  | 32 => ⟨S2000000, .i32⟩
  | 33 => ⟨S2000000, .i32⟩
  | 34 => ⟨S2000000x1, .i32⟩
  | 35 => ⟨S2000000, .f32⟩
  | 36 => ⟨S_, .i32⟩
  | 37 => ⟨S2000000, .i32⟩
  | 38 => ⟨S2000000, .i1⟩
  | 39 => ⟨S_, .i32⟩
  | 40 => ⟨S2000000, .i32⟩
  | 41 => ⟨S2000000, .i32⟩
  | 42 => ⟨S2000000, .i32⟩
  | 43 => ⟨S2000000x1, .i32⟩
  | 44 => ⟨S2000000, .f32⟩
  | 45 => ⟨S2000000, .f32⟩
  | 46 => ⟨S_, .i32⟩
  | 47 => ⟨S2000000, .i32⟩
  | 48 => ⟨S2000000, .i1⟩
  | 49 => ⟨S_, .i32⟩
  | 50 => ⟨S2000000, .i32⟩
  | 51 => ⟨S2000000, .i32⟩
  | 52 => ⟨S2000000, .i32⟩
  | 53 => ⟨S2000000x1, .i32⟩
  | 54 => ⟨S2000000x64, .f32⟩
  | 55 => ⟨S2000000x1, .f32⟩
  | 56 => ⟨S2000000x64, .f32⟩
  | 57 => ⟨S2000000x64, .f32⟩
  | 58 => ⟨S_, .f32⟩
  | 59 => ⟨S500000x64, .f32⟩
  | 60 => ⟨S2000000x1, .i32⟩
  | 61 => ⟨S500000x64, .f32⟩
  | 62 => ⟨S_, .f32⟩
  | 63 => ⟨S500000, .f32⟩
  | 64 => ⟨S500000, .f32⟩
  | 65 => ⟨S500000x1, .f32⟩
  | 66 => ⟨S500000x64, .f32⟩
  | 67 => ⟨S500000x64, .f32⟩
  | 68 => ⟨S500000x64, .f32⟩
  | 69 => ⟨S1x64, .f32⟩
  | 70 => ⟨S500000x64, .f32⟩
  | 71 => ⟨S500000x64, .f32⟩
  | 72 => ⟨S_, .f32⟩
  | 73 => ⟨S500000x64, .f32⟩
  | 74 => ⟨S500000x64, .f32⟩
  | 75 => ⟨S500000x64, .f32⟩
  | 76 => ⟨S_, .f32⟩
  | 77 => ⟨S2000000, .f32⟩
  | 78 => ⟨S_, .f32⟩
  | 79 => ⟨S500000, .f32⟩
  | 80 => ⟨S2000000x1, .i32⟩
  | 81 => ⟨S500000, .f32⟩
  | 82 => ⟨S_, .f32⟩
  | 83 => ⟨S500000, .f32⟩
  | 84 => ⟨S500000, .f32⟩
  | 85 => ⟨S500000, .f32⟩
  | 86 => ⟨S_, .i32⟩
  | 87 => ⟨S2000000, .i32⟩
  | 88 => ⟨S2000000, .i1⟩
  | 89 => ⟨S_, .i32⟩
  | 90 => ⟨S2000000, .i32⟩
  | 91 => ⟨S2000000, .i32⟩
  | 92 => ⟨S2000000, .i32⟩
  | 93 => ⟨S2000000x1, .i32⟩
  | 94 => ⟨S2000000, .f32⟩
  | 95 => ⟨S_, .i32⟩
  | 96 => ⟨S2000000, .i32⟩
  | 97 => ⟨S2000000, .i1⟩
  | 98 => ⟨S_, .i32⟩
  | 99 => ⟨S2000000, .i32⟩
  | 100 => ⟨S2000000, .i32⟩
  | 101 => ⟨S2000000, .i32⟩
  | 102 => ⟨S2000000x1, .i32⟩
  | 103 => ⟨S2000000, .f32⟩
  | 104 => ⟨S2000000, .f32⟩
  | 105 => ⟨S_, .i32⟩
  | 106 => ⟨S2000000, .i32⟩
  | 107 => ⟨S2000000, .i1⟩
  | 108 => ⟨S_, .i32⟩
  | 109 => ⟨S2000000, .i32⟩
  | 110 => ⟨S2000000, .i32⟩
  | 111 => ⟨S2000000, .i32⟩
  | 112 => ⟨S2000000x1, .i32⟩
  | 113 => ⟨S2000000x64, .f32⟩
  | 114 => ⟨S2000000x1, .f32⟩
  | 115 => ⟨S2000000x64, .f32⟩
  | 116 => ⟨S2000000x64, .f32⟩
  | 117 => ⟨S_, .f32⟩
  | 118 => ⟨S500000x64, .f32⟩
  | 119 => ⟨S2000000x1, .i32⟩
  | 120 => ⟨S500000x64, .f32⟩
  | 121 => ⟨S_, .f32⟩
  | 122 => ⟨S500000, .f32⟩
  | 123 => ⟨S500000, .f32⟩
  | 124 => ⟨S500000x1, .f32⟩
  | 125 => ⟨S500000x64, .f32⟩
  | 126 => ⟨S500000x64, .f32⟩
  | 127 => ⟨S500000x64, .f32⟩
  | _ => ⟨S500000x64, .f32⟩

abbrev hbmTy0_1 (i : Nat) : BufTy := match i % 128 with
  | 0 => ⟨S1x64, .f32⟩
  | 1 => ⟨S500000x64, .f32⟩
  | 2 => ⟨S500000x64, .f32⟩
  | 3 => ⟨S_, .f32⟩
  | 4 => ⟨S500000x64, .f32⟩
  | 5 => ⟨S500000x64, .f32⟩
  | 6 => ⟨S_, .f32⟩
  | 7 => ⟨S20000x64, .f32⟩
  | 8 => ⟨S500000x1, .i32⟩
  | 9 => ⟨S20000x64, .f32⟩
  | 10 => ⟨S_, .f32⟩
  | 11 => ⟨S500000, .f32⟩
  | 12 => ⟨S_, .f32⟩
  | 13 => ⟨S20000, .f32⟩
  | 14 => ⟨S500000x1, .i32⟩
  | 15 => ⟨S20000, .f32⟩
  | 16 => ⟨S_, .f32⟩
  | 17 => ⟨S20000, .f32⟩
  | 18 => ⟨S20000, .f32⟩
  | 19 => ⟨S20000x1, .f32⟩
  | 20 => ⟨S20000x64, .f32⟩
  | 21 => ⟨S20000x64, .f32⟩
  | 22 => ⟨S1x50000, .i32⟩
  | 23 => ⟨S50000, .i32⟩
  | 24 => ⟨S_, .i32⟩
  | 25 => ⟨S50000, .i32⟩
  | 26 => ⟨S50000, .i1⟩
  | 27 => ⟨S_, .i32⟩
  | 28 => ⟨S50000, .i32⟩
  | 29 => ⟨S50000, .i32⟩
  | 30 => ⟨S50000, .i32⟩
  | 31 => ⟨S50000x1, .i32⟩
  | 32 => ⟨S50000x64, .f32⟩
  | 33 => ⟨S1x50000, .i32⟩
  | 34 => ⟨S50000, .i32⟩
  | 35 => ⟨S_, .i32⟩
  | 36 => ⟨S50000, .i32⟩
  | 37 => ⟨S50000, .i1⟩
  | 38 => ⟨S_, .i32⟩
  | 39 => ⟨S50000, .i32⟩
  | 40 => ⟨S50000, .i32⟩
  | 41 => ⟨S50000, .i32⟩
  | 42 => ⟨S50000x1, .i32⟩
  | 43 => ⟨S50000x64, .f32⟩
  | 44 => ⟨S50000x128, .f32⟩
  | 45 => ⟨S50000x256, .f32⟩
  | 46 => ⟨S1x256, .f32⟩
  | 47 => ⟨S50000x256, .f32⟩
  | 48 => ⟨S50000x256, .f32⟩
  | 49 => ⟨S_, .f32⟩
  | 50 => ⟨S50000x256, .f32⟩
  | 51 => ⟨S50000x256, .f32⟩
  | 52 => ⟨S50000x1, .f32⟩
  | 53 => ⟨S1x1, .f32⟩
  | 54 => ⟨S50000x1, .f32⟩
  | 55 => ⟨S50000x1, .f32⟩
  | _ => ⟨S500000x64, .f32⟩

abbrev hbmTy (i : Nat) : BufTy := match i / 128 with
  | 0 => hbmTy0_0 i
  | 1 => hbmTy0_1 i
  | _ => ⟨S500000x64, .f32⟩

abbrev bufTy : (tb : Table) → Fin (tcTables nBuf tb) → BufTy
  | .hbm, ⟨i, _⟩ => hbmTy i
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call0_cst : Ref sig .tc := ⟨.hbm, 72, rfl⟩
abbrev main_call0_v0 : Ref sig .tc := ⟨.hbm, 73, rfl⟩
abbrev main_v49 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_c_13 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_c_17 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_18 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_19 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call1_cst : Ref sig .tc := ⟨.hbm, 131, rfl⟩
abbrev main_call1_v0 : Ref sig .tc := ⟨.hbm, 132, rfl⟩
abbrev main_v95 : Ref sig .tc := ⟨.hbm, 133, rfl⟩
abbrev main_cst_20 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_21 : Ref sig .tc := ⟨.hbm, 138, rfl⟩
abbrev main_v99 : Ref sig .tc := ⟨.hbm, 139, rfl⟩
abbrev main_cst_22 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_23 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_c_24 : Ref sig .tc := ⟨.hbm, 152, rfl⟩
abbrev main_v110 : Ref sig .tc := ⟨.hbm, 153, rfl⟩
abbrev main_v111 : Ref sig .tc := ⟨.hbm, 154, rfl⟩
abbrev main_c_25 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_c_26 : Ref sig .tc := ⟨.hbm, 163, rfl⟩
abbrev main_v119 : Ref sig .tc := ⟨.hbm, 164, rfl⟩
abbrev main_v120 : Ref sig .tc := ⟨.hbm, 165, rfl⟩
abbrev main_c_27 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_call2_cst : Ref sig .tc := ⟨.hbm, 177, rfl⟩
abbrev main_call2_v0 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S500000 : S_.BroadcastsInDim S500000 (![] : Fin 0 → Fin S500000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S500000x64 : S_.BroadcastsInDim S500000x64 (![] : Fin 0 → Fin S500000x64.rank)
  bcast_S500000_S500000x1_0 : S500000.BroadcastsInDim S500000x1 (![0] : Fin 1 → Fin S500000x1.rank)
  bcast_S500000x1_S500000x64_0_1 : S500000x1.BroadcastsInDim S500000x64 (![0, 1] : Fin 2 → Fin S500000x64.rank)
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S20000x64 : S_.BroadcastsInDim S20000x64 (![] : Fin 0 → Fin S20000x64.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  slices_S2x50000_S1x50000_0_0 : S2x50000.Slices ![0, 0] S1x50000
  shapeCasts_S1x50000_S50000 : S1x50000.ShapeCasts S50000
  bcast_S_S50000 : S_.BroadcastsInDim S50000 (![] : Fin 0 → Fin S50000.rank)
  bcast_S50000_S50000x1_0 : S50000.BroadcastsInDim S50000x1 (![0] : Fin 1 → Fin S50000x1.rank)
  slices_S2x50000_S1x50000_1_0 : S2x50000.Slices ![1, 0] S1x50000
  concatenates_S50000x64_S50000x64_S50000x128_d1 : Shape.Concatenates [S50000x64, S50000x64] S50000x128 1
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  dot_S500000x64_S64x64_S500000x64_1_0_0_1_n_n_wf : DotDims.WF S500000x64 S64x64 S500000x64 [1] [0] [0] [1] [] []
  scatter_S500000_S2000000x1_S2000000_n_0_0_1_wf : ScatterDims.WF S500000 S2000000x1 S2000000 [] [0] [0] 1
  gather_S500000_S2000000x1_S2000000_n_0_n_n_0_1_1_wf : GatherDims.WF S500000 S2000000x1 S2000000 [] [0] [] [0] [] 1 ![1]
  gather_S500000x64_S2000000x1_S2000000x64_1_0_n_n_0_1_164_wf : GatherDims.WF S500000x64 S2000000x1 S2000000x64 [1] [0] [] [0] [] 1 ![1, 64]
  scatter_S500000x64_S2000000x1_S2000000x64_1_0_0_1_wf : ScatterDims.WF S500000x64 S2000000x1 S2000000x64 [1] [0] [0] 1
  scatter_S20000x64_S500000x1_S500000x64_1_0_0_1_wf : ScatterDims.WF S20000x64 S500000x1 S500000x64 [1] [0] [0] 1
  scatter_S20000_S500000x1_S500000_n_0_0_1_wf : ScatterDims.WF S20000 S500000x1 S500000 [] [0] [0] 1
  gather_S20000x64_S50000x1_S50000x64_1_0_n_n_0_1_164_wf : GatherDims.WF S20000x64 S50000x1 S50000x64 [1] [0] [] [0] [] 1 ![1, 64]
  dot_S50000x128_S128x256_S50000x256_1_0_0_1_n_n_wf : DotDims.WF S50000x128 S128x256 S50000x256 [1] [0] [0] [1] [] []
  dot_S50000x256_S256x1_S50000x1_1_0_0_1_n_n_wf : DotDims.WF S50000x256 S256x1 S50000x1 [1] [0] [0] [1] [] []

variable [Facts₀]

def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf
def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def gather_S500000_S2000000x1_S2000000_n_0_n_n_0_1_1 : GatherDims S500000 S2000000x1 S2000000 where
  offsetDims := []
  collapsedSliceDims := [0]
  operandBatchingDims := []
  startIndicesBatchingDims := []
  startIndexMap := [0]
  indexVectorDim := 1
  sliceSizes := ![1]
  wf := gather_S500000_S2000000x1_S2000000_n_0_n_n_0_1_1_wf
def gather_S500000x64_S2000000x1_S2000000x64_1_0_n_n_0_1_164 : GatherDims S500000x64 S2000000x1 S2000000x64 where
  offsetDims := [1]
  collapsedSliceDims := [0]
  operandBatchingDims := []
  startIndicesBatchingDims := []
  startIndexMap := [0]
  indexVectorDim := 1
  sliceSizes := ![1, 64]
  wf := gather_S500000x64_S2000000x1_S2000000x64_1_0_n_n_0_1_164_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf
def scatter_S20000x64_S500000x1_S500000x64_1_0_0_1 : ScatterDims S20000x64 S500000x1 S500000x64 where
  updateWindowDims := [1]
  insertedWindowDims := [0]
  scatterDimsToOperandDims := [0]
  indexVectorDim := 1
  wf := scatter_S20000x64_S500000x1_S500000x64_1_0_0_1_wf
def scatter_S20000_S500000x1_S500000_n_0_0_1 : ScatterDims S20000 S500000x1 S500000 where
  updateWindowDims := []
  insertedWindowDims := [0]
  scatterDimsToOperandDims := [0]
  indexVectorDim := 1
  wf := scatter_S20000_S500000x1_S500000_n_0_0_1_wf
def gather_S20000x64_S50000x1_S50000x64_1_0_n_n_0_1_164 : GatherDims S20000x64 S50000x1 S50000x64 where
  offsetDims := [1]
  collapsedSliceDims := [0]
  operandBatchingDims := []
  startIndicesBatchingDims := []
  startIndexMap := [0]
  indexVectorDim := 1
  sliceSizes := ![1, 64]
  wf := gather_S20000x64_S50000x1_S50000x64_1_0_n_n_0_1_164_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf

class Facts : Prop extends Facts₀ where

variable [Facts]
-- ==== Proof.KRun.lean ====
/-
  The kernel program's run with its result kept. The program is four grid regions among stretches of host operations;
  the buffer contents at each boundary are a fold from the launch memory (a stretch's operations applied in order; a
  region's arrays replaced by what its write-backs leave). Every weakly fair execution terminates without a fault, and
  in the final state every unscoped buffer holds the last fold's contents: in particular the result buffer, and each
  argument array, which the fold leaves as launched.
-/
import proofs.«158527_j87737591923132_1_alg».proof.Proof.Gen.KernelIdeal.Frame

set_option maxRecDepth 16384

noncomputable section

namespace Cert.KernelIdeal.GcnRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters, every weakly fair execution of the program terminates, nothing faulting, with
    the result buffer at the last boundary's contents and the argument arrays as launched. -/
theorem run_result : θ_run defs (onTc (τ := τ) (main (F := F))) ⟨m, fun _ => 0, ρ⟩ (fun r => ∀ c : Dev nD,
      r.2.mem ((c.tc : Thread nD τ).loc main_v100) = W8 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v100 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.GcnRun

end
-- ==== Proof.LibChebAlgebra.lean ====
/-
  UNTRUSTED. General algebra of a Chebyshev graph-convolution layer over the extended reals, independent of any
  particular program: (1) arrays all of whose entries are real numbers (`IsReal`) and the operations that preserve this;
  (2) node-axis propagation along weighted edges (`prop`) and the feature-axis matrix product (`mm`), both as sums;
  (3) the two commute (`prop_mm`); (4) the degree-2 Chebyshev layer written "product first, then propagate" equals
  the layer written "propagate first, then product" (`cheb_layer`).
  Extended-real arithmetic is not a ring (⊤ + ⊥, 0 * ⊤), so every identity here is proved by moving to ℝ, where the
  arrays live once they are known to be real.
-/
import Idealize.ShloMosaic.Lib.ValueIdx

noncomputable section

open scoped BigOperators

namespace ChebAlgebra

open Idealize.ShloMosaic Idealize.ShloMosaic.ValueIdx

/-! ## (1) Arrays of real numbers -/

/-- Every entry of the extended-real array `v` is a real number (equivalently: none is ⊤ or ⊥). -/
def IsReal {ι : Type*} (v : ι → EReal) : Prop := ∀ i, ∃ r : ℝ, v i = (r : EReal)

/-- The coercion ℝ → EReal commutes with finite sums. -/
theorem coe_finset_sum {κ : Type*} (s : Finset κ) (f : κ → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- The coercion ℝ → EReal commutes with `if … then … else 0`. -/
theorem coe_ite_zero (p : Prop) [Decidable p] (a : ℝ) :
    (((if p then a else 0 : ℝ)) : EReal) = if p then (a : EReal) else 0 := by
  split_ifs <;> simp

/-- The coercion ℝ → EReal commutes with `max`. -/
theorem coe_max (x y : ℝ) : ((max x y : ℝ) : EReal) = max (x : EReal) (y : EReal) :=
  Monotone.map_max EReal.coe_strictMono.monotone

/-- A real array is the coercion of an array of reals. -/
theorem IsReal.lift {ι : Type*} {v : ι → EReal} (h : IsReal v) : ∃ v' : ι → ℝ, v = fun i => ((v' i : ℝ) : EReal) := by
  choose v' hv using h
  exact ⟨v', funext hv⟩

/-- The coercion of an array of reals is a real array. -/
theorem isReal_coe {ι : Type*} (v : ι → ℝ) : IsReal (fun i => ((v i : ℝ) : EReal)) := fun i => ⟨v i, rfl⟩

/-- A constant array with a real value is real. -/
theorem isReal_const {ι : Type*} (r : ℝ) : IsReal (fun _ : ι => (r : EReal)) := fun _ => ⟨r, rfl⟩

/-- A constant array whose value is known to be real is real. -/
theorem isReal_const' {ι : Type*} {c : EReal} (h : ∃ r : ℝ, c = (r : EReal)) : IsReal (fun _ : ι => c) := fun _ => h

/-- Re-indexing (by any map) keeps an array real. -/
theorem IsReal.comp {ι κ : Type*} {v : ι → EReal} (h : IsReal v) (g : κ → ι) : IsReal (fun i => v (g i)) :=
  fun i => h (g i)

/-- A pointwise sum of real arrays is real. -/
theorem IsReal.add {ι : Type*} {a b : ι → EReal} (ha : IsReal a) (hb : IsReal b) : IsReal (fun i => a i + b i) := fun i => by
  obtain ⟨x, hx⟩ := ha i; obtain ⟨y, hy⟩ := hb i
  exact ⟨x + y, by show a i + b i = _; rw [hx, hy, EReal.coe_add]⟩

/-- A pointwise difference of real arrays is real. -/
theorem IsReal.sub {ι : Type*} {a b : ι → EReal} (ha : IsReal a) (hb : IsReal b) : IsReal (fun i => a i - b i) := fun i => by
  obtain ⟨x, hx⟩ := ha i; obtain ⟨y, hy⟩ := hb i
  exact ⟨x - y, by show a i - b i = _; rw [hx, hy, EReal.coe_sub]⟩

/-- A pointwise product of real arrays is real. -/
theorem IsReal.mul {ι : Type*} {a b : ι → EReal} (ha : IsReal a) (hb : IsReal b) : IsReal (fun i => a i * b i) := fun i => by
  obtain ⟨x, hx⟩ := ha i; obtain ⟨y, hy⟩ := hb i
  exact ⟨x * y, by show a i * b i = _; rw [hx, hy, EReal.coe_mul]⟩

/-- The pointwise negation of a real array is real. -/
theorem IsReal.neg {ι : Type*} {a : ι → EReal} (ha : IsReal a) : IsReal (fun i => - a i) := fun i => by
  obtain ⟨x, hx⟩ := ha i
  exact ⟨-x, by show - a i = _; rw [hx, EReal.coe_neg]⟩

/-- A pointwise maximum of real arrays is real. -/
theorem IsReal.max {ι : Type*} {a b : ι → EReal} (ha : IsReal a) (hb : IsReal b) : IsReal (fun i => max (a i) (b i)) := fun i => by
  obtain ⟨x, hx⟩ := ha i; obtain ⟨y, hy⟩ := hb i
  exact ⟨Max.max x y, by show Max.max (a i) (b i) = _; rw [hx, hy, coe_max]⟩

/-- A finite sum of real entries is real; only the summands over `s` need be real. -/
theorem isReal_sum' {ι κ : Type*} (s : Finset κ) (f : ι → κ → EReal) (h : ∀ i, ∀ k ∈ s, ∃ r : ℝ, f i k = (r : EReal)) :
    IsReal (fun i => ∑ k ∈ s, f i k) := by
  classical
  intro i
  show ∃ r : ℝ, ∑ k ∈ s, f i k = (r : EReal)
  induction s using Finset.induction_on with
  | empty => exact ⟨0, by simp⟩
  | insert a s ha ih =>
    obtain ⟨x, hx⟩ := h i a (Finset.mem_insert_self a s)
    obtain ⟨y, hy⟩ := ih (fun i k hk => h i k (Finset.mem_insert_of_mem hk))
    exact ⟨x + y, by rw [Finset.sum_insert ha, hx, hy, EReal.coe_add]⟩

/-- A finite sum of real entries is real. -/
theorem isReal_sum {ι κ : Type*} (s : Finset κ) (f : ι → κ → EReal) (h : ∀ i k, ∃ r : ℝ, f i k = (r : EReal)) :
    IsReal (fun i => ∑ k ∈ s, f i k) :=
  isReal_sum' s f (fun i k _ => h i k)

/-- A finite sum of `if p then (a real entry) else 0` is real. -/
theorem isReal_sum_ite {ι κ : Type*} (s : Finset κ) (p : ι → κ → Prop) [∀ i k, Decidable (p i k)] (f : ι → κ → EReal)
    (h : ∀ i k, ∃ r : ℝ, f i k = (r : EReal)) : IsReal (fun i => ∑ k ∈ s, if p i k then f i k else 0) :=
  isReal_sum s _ (fun i k => by
    split_ifs
    · exact h i k
    · exact ⟨0, rfl⟩)

/-! ## (2) Propagation along edges and the matrix product, as sums -/

section Operators
variable {N C E A B : Nat}

/-- Node-axis propagation: entry `(n, c)` of the result adds `nu e * Y (g e, c)` over the edges `e` that land on node `n`.
    `row e` is the node edge `e` lands on (`none`: the edge is dropped), `g e` the node it reads from, `nu e` its weight. -/
def prop (row : Fin E → Option (Fin N)) (g : Fin E → Fin N) (nu : Fin E → EReal)
    (Y : (⟨2, ![N, C]⟩ : Shape).Idx → EReal) : (⟨2, ![N, C]⟩ : Shape).Idx → EReal :=
  fun i => ∑ e : Fin E, if row e = (some (i 0) : Option (Fin N)) then nu e * Y (ix2 (g e) (i 1)) else 0

/-- The matrix product on the feature axis. -/
def mm (X : (⟨2, ![N, A]⟩ : Shape).Idx → EReal) (W : (⟨2, ![A, B]⟩ : Shape).Idx → EReal) :
    (⟨2, ![N, B]⟩ : Shape).Idx → EReal :=
  fun i => ∑ k : Fin A, X (ix2 (i 0) k) * W (ix2 k (i 1))

/-- Propagation over ℝ. -/
def propR (row : Fin E → Option (Fin N)) (g : Fin E → Fin N) (nu : Fin E → ℝ)
    (Y : (⟨2, ![N, C]⟩ : Shape).Idx → ℝ) : (⟨2, ![N, C]⟩ : Shape).Idx → ℝ :=
  fun i => ∑ e : Fin E, if row e = (some (i 0) : Option (Fin N)) then nu e * Y (ix2 (g e) (i 1)) else 0

/-- The matrix product over ℝ. -/
def mmR (X : (⟨2, ![N, A]⟩ : Shape).Idx → ℝ) (W : (⟨2, ![A, B]⟩ : Shape).Idx → ℝ) :
    (⟨2, ![N, B]⟩ : Shape).Idx → ℝ :=
  fun i => ∑ k : Fin A, X (ix2 (i 0) k) * W (ix2 k (i 1))

/-- Propagation of coerced real data is the coercion of the real propagation. -/
theorem prop_coe (row : Fin E → Option (Fin N)) (g : Fin E → Fin N) (nu : Fin E → ℝ)
    (Y : (⟨2, ![N, C]⟩ : Shape).Idx → ℝ) :
    prop row g (fun e => ((nu e : ℝ) : EReal)) (fun j => ((Y j : ℝ) : EReal)) = fun i => ((propR row g nu Y i : ℝ) : EReal) := by
  funext i
  show (∑ e : Fin E, if row e = (some (i 0) : Option (Fin N)) then ((nu e : ℝ) : EReal) * ((Y (ix2 (g e) (i 1)) : ℝ) : EReal) else 0)
    = ((∑ e : Fin E, if row e = (some (i 0) : Option (Fin N)) then nu e * Y (ix2 (g e) (i 1)) else 0 : ℝ) : EReal)
  rw [coe_finset_sum]
  refine Finset.sum_congr rfl (fun e _ => ?_)
  rw [coe_ite_zero, EReal.coe_mul]

/-- The product of coerced real matrices is the coercion of the real product. -/
theorem mm_coe (X : (⟨2, ![N, A]⟩ : Shape).Idx → ℝ) (W : (⟨2, ![A, B]⟩ : Shape).Idx → ℝ) :
    mm (fun j => ((X j : ℝ) : EReal)) (fun j => ((W j : ℝ) : EReal)) = fun i => ((mmR X W i : ℝ) : EReal) := by
  funext i
  show (∑ k : Fin A, ((X (ix2 (i 0) k) : ℝ) : EReal) * ((W (ix2 k (i 1)) : ℝ) : EReal))
    = ((∑ k : Fin A, X (ix2 (i 0) k) * W (ix2 k (i 1)) : ℝ) : EReal)
  rw [coe_finset_sum]
  refine Finset.sum_congr rfl (fun k _ => ?_)
  rw [EReal.coe_mul]

/-- Propagating real data along real weights gives a real array. -/
theorem isReal_prop (row : Fin E → Option (Fin N)) (g : Fin E → Fin N) {nu : Fin E → EReal}
    {Y : (⟨2, ![N, C]⟩ : Shape).Idx → EReal} (hnu : IsReal nu) (hY : IsReal Y) : IsReal (prop row g nu Y) := by
  obtain ⟨nu', rfl⟩ := hnu.lift
  obtain ⟨Y', rfl⟩ := hY.lift
  rw [prop_coe]
  exact isReal_coe _

/-- The product of real matrices is real. -/
theorem isReal_mm {X : (⟨2, ![N, A]⟩ : Shape).Idx → EReal} {W : (⟨2, ![A, B]⟩ : Shape).Idx → EReal}
    (hX : IsReal X) (hW : IsReal W) : IsReal (mm X W) := by
  obtain ⟨X', rfl⟩ := hX.lift
  obtain ⟨W', rfl⟩ := hW.lift
  rw [mm_coe]
  exact isReal_coe _

/-! ## (3) Propagation commutes with the matrix product -/

/-- Over ℝ: propagating a product along the node axis is the product of the propagated left factor. -/
theorem propR_mmR (row : Fin E → Option (Fin N)) (g : Fin E → Fin N) (nu : Fin E → ℝ)
    (X : (⟨2, ![N, A]⟩ : Shape).Idx → ℝ) (W : (⟨2, ![A, B]⟩ : Shape).Idx → ℝ) :
    propR row g nu (mmR X W) = mmR (propR row g nu X) W := by
  funext i
  show (∑ e : Fin E, if row e = (some (i 0) : Option (Fin N)) then nu e * ∑ k : Fin A, X (ix2 (g e) k) * W (ix2 k (i 1)) else 0)
    = ∑ k : Fin A, (∑ e : Fin E, if row e = (some (i 0) : Option (Fin N)) then nu e * X (ix2 (g e) k) else 0) * W (ix2 k (i 1))
  simp only [Finset.sum_mul]
  rw [Finset.sum_comm]
  refine Finset.sum_congr rfl (fun e _ => ?_)
  by_cases h : row e = (some (i 0) : Option (Fin N))
  · simp only [if_pos h, Finset.mul_sum]
    exact Finset.sum_congr rfl (fun k _ => by ring)
  · simp only [if_neg h, zero_mul, Finset.sum_const_zero]

/-- THE LAW: for real weights and real matrices, propagation along the node axis commutes with a matrix product on
    the feature axis. -/
theorem prop_mm (row : Fin E → Option (Fin N)) (g : Fin E → Fin N) {nu : Fin E → EReal}
    {X : (⟨2, ![N, A]⟩ : Shape).Idx → EReal} {W : (⟨2, ![A, B]⟩ : Shape).Idx → EReal}
    (hnu : IsReal nu) (hX : IsReal X) (hW : IsReal W) :
    prop row g nu (mm X W) = mm (prop row g nu X) W := by
  obtain ⟨nu', rfl⟩ := hnu.lift
  obtain ⟨X', rfl⟩ := hX.lift
  obtain ⟨W', rfl⟩ := hW.lift
  rw [mm_coe, prop_coe, prop_coe, mm_coe, propR_mmR]

/-! ## (4) The degree-2 Chebyshev layer, two ways -/

/-- Over ℝ the matrix product is linear in its left factor: the combination `a * P - X`. -/
theorem mmR_lin (a : ℝ) (P X : (⟨2, ![N, A]⟩ : Shape).Idx → ℝ) (W : (⟨2, ![A, B]⟩ : Shape).Idx → ℝ)
    (i : (⟨2, ![N, B]⟩ : Shape).Idx) :
    mmR (fun j => a * P j - X j) W i = a * mmR P W i - mmR X W i := by
  show (∑ k : Fin A, (a * P (ix2 (i 0) k) - X (ix2 (i 0) k)) * W (ix2 k (i 1)))
    = a * (∑ k : Fin A, P (ix2 (i 0) k) * W (ix2 k (i 1))) - ∑ k : Fin A, X (ix2 (i 0) k) * W (ix2 k (i 1))
  rw [Finset.mul_sum, ← Finset.sum_sub_distrib]
  exact Finset.sum_congr rfl (fun k _ => by ring)

/-- THE LAYER IDENTITY. With `T0 = X`, `T1 = L X`, `T2 = 2 L (L X) - X` (`L` the propagation), the layer
    `T0 W0 + T1 W1 + T2 W2 + b` may be computed product-first: `X W0 + L (X W1) + 2 L (L (X W2)) - X W2 + b`.
    Left side: products first, then propagation; right side: propagation first, then products. All data real;
    `two` is the real number 2. -/
theorem cheb_layer (row : Fin E → Option (Fin N)) (g : Fin E → Fin N) {nu : Fin E → EReal}
    {X : (⟨2, ![N, A]⟩ : Shape).Idx → EReal} {W0 W1 W2 : (⟨2, ![A, B]⟩ : Shape).Idx → EReal}
    {bb : (⟨2, ![N, B]⟩ : Shape).Idx → EReal} {two : EReal}
    (hnu : IsReal nu) (hX : IsReal X) (hW0 : IsReal W0) (hW1 : IsReal W1) (hW2 : IsReal W2) (hbb : IsReal bb)
    (htwo : two = ((2 : ℝ) : EReal)) :
    (fun i => ((((mm X W0 i + prop row g nu (mm X W1) i) + two * prop row g nu (prop row g nu (mm X W2)) i)
        - mm X W2 i) + bb i))
      = fun i => (((mm X W0 i + mm (prop row g nu X) W1 i)
        + mm (fun j => two * prop row g nu (prop row g nu X) j - X j) W2 i) + bb i) := by
  obtain ⟨nu', rfl⟩ := hnu.lift
  obtain ⟨X', rfl⟩ := hX.lift
  obtain ⟨W0', rfl⟩ := hW0.lift
  obtain ⟨W1', rfl⟩ := hW1.lift
  obtain ⟨W2', rfl⟩ := hW2.lift
  obtain ⟨bb', rfl⟩ := hbb.lift
  subst htwo
  -- every operator on coerced real data is the coercion of the real operator
  simp only [mm_coe, prop_coe]
  -- the right side's third left factor is itself a coerced real array
  have h3 : (fun j => ((2 : ℝ) : EReal) * ((propR row g nu' (propR row g nu' X') j : ℝ) : EReal) - ((X' j : ℝ) : EReal))
      = fun j => ((2 * propR row g nu' (propR row g nu' X') j - X' j : ℝ) : EReal) := by
    funext j
    rw [EReal.coe_sub, EReal.coe_mul]
  rw [h3, mm_coe]
  funext i
  simp only [← EReal.coe_mul, ← EReal.coe_add, ← EReal.coe_sub]
  rw [EReal.coe_eq_coe_iff]
  -- in ℝ: commute propagation with the products, then linearity
  simp only [propR_mmR, mmR_lin]
  ring

end Operators

end ChebAlgebra

end
-- ==== Proof.LibHostForms.lean ====
/-
  UNTRUSTED. Host operations read as WHOLE-ARRAY equations at the ideal values, for arrays of any sizes: a plain matrix
  product `[N, A] × [A, B]` written as a `dot_general` is the sum over the inner coordinate; a slice `W[κ]` of a stack
  of matrices; a bias row broadcast over the rows of a matrix; a broadcast scalar constant; and the pointwise arithmetic.
-/
import Idealize.ShloMosaic.Lib.ValueIdx
import Idealize.ShloMosaic.Lib.Pipeline.Value
import Idealize.ShloMosaic.Lib.ValueLayout
import Idealize.ShloMosaic.PureOps.Ideal.Laws
import proofs.«158527_j87737591923132_1_alg».proof.Proof.LibChebAlgebra

noncomputable section

open scoped BigOperators

namespace HostForms

open Idealize.ShloMosaic Idealize.ShloMosaic.ValueIdx

variable {N A B : Nat}

/-! ## (L1) A plain `dot_general` is the matrix-product sum -/

/-- The dimension numbers of a plain product `[N, A] × [A, B] → [N, B]`: the left operand's axis 1 is contracted with the
    right operand's axis 0; no batch axes. -/
abbrev plainDotDims (N A B : Nat)
    (wf : DotDims.WF ⟨2, ![N, A]⟩ ⟨2, ![A, B]⟩ ⟨2, ![N, B]⟩ [1] [0] [0] [1] [] []) :
    DotDims ⟨2, ![N, A]⟩ ⟨2, ![A, B]⟩ ⟨2, ![N, B]⟩ where
  lhsContracting := [1]
  rhsContracting := [0]
  lhsNonContracting := [0]
  rhsNonContracting := [1]
  lhsBatch := []
  rhsBatch := []
  wf := wf

section DotLiteral
variable (wf : DotDims.WF ⟨2, ![N, A]⟩ ⟨2, ![A, B]⟩ ⟨2, ![N, B]⟩ [1] [0] [0] [1] [] [])

/-- The left operand's row coordinate is the output's row. -/
theorem lhs_row (i : (⟨2, ![N, B]⟩ : Shape).Idx) (q : (plainDotDims N A B wf).contr.Idx) :
    ((plainDotDims N A B wf).lhsIdx i q 0).val = (i 0).val := by
  unfold DotDims.lhsIdx
  rw [dif_neg (show (0 : Fin 2) ∉ (plainDotDims N A B wf).lhsBatch from List.not_mem_nil),
    dif_pos (show (0 : Fin 2) ∈ (plainDotDims N A B wf).lhsNonContracting from List.mem_singleton.mpr rfl)]
  rfl

/-- The right operand's column coordinate is the output's column. -/
theorem rhs_col (i : (⟨2, ![N, B]⟩ : Shape).Idx) (q : (plainDotDims N A B wf).contr.Idx) :
    ((plainDotDims N A B wf).rhsIdx i q 1).val = (i 1).val := by
  unfold DotDims.rhsIdx
  rw [dif_neg (show (1 : Fin 2) ∉ (plainDotDims N A B wf).rhsBatch from List.not_mem_nil),
    dif_pos (show (1 : Fin 2) ∈ (plainDotDims N A B wf).rhsNonContracting from List.mem_singleton.mpr rfl)]
  rfl

/-- THE PRODUCT AT ROW `r`, COLUMN `f`, for the literal dimension numbers: the sum over the inner coordinate. -/
theorem dotGeneral_plainDims_apply {φ₁ φ₂ : FTy} (prec : Option ContractPrecision) (X : FVec Ideal ⟨2, ![N, A]⟩ φ₁)
    (W : FVec Ideal ⟨2, ![A, B]⟩ φ₂) (r : Fin N) (f : Fin B) :
    Host.dotGeneral (F := Ideal) (plainDotDims N A B wf) prec X W (ix2 r f) = ∑ k : Fin A, X (ix2 r k) * W (ix2 k f) := by
  show FloatOps.dotGeneral (plainDotDims N A B wf) prec .single X W (ix2 r f) = _
  rw [Ideal.dotGeneral_apply, ← Equiv.sum_comp (contrEquiv1 (plainDotDims N A B wf) A rfl rfl).symm]
  refine Finset.sum_congr rfl fun k _ => ?_
  have hk := contrEquiv1_symm_val (plainDotDims N A B wf) A rfl rfl k
  have el : (plainDotDims N A B wf).lhsIdx (ix2 r f) ((contrEquiv1 (plainDotDims N A B wf) A rfl rfl).symm k) = ix2 r k :=
    funext fun a => Fin.ext (by
      match a with
      | ⟨0, _⟩ => exact lhs_row wf _ _
      | ⟨1, _⟩ => exact (DotDims.lhsIdx_val_of_single (plainDotDims N A B wf) rfl _ _).trans hk)
  have er : (plainDotDims N A B wf).rhsIdx (ix2 r f) ((contrEquiv1 (plainDotDims N A B wf) A rfl rfl).symm k) = ix2 k f :=
    funext fun a => Fin.ext (by
      match a with
      | ⟨0, _⟩ => exact (DotDims.rhsIdx_val_of_single (plainDotDims N A B wf) rfl _ _).trans hk
      | ⟨1, _⟩ => exact rhs_col wf _ _)
  rw [el, er]

/-- The whole product, for the literal dimension numbers. -/
theorem dotGeneral_plainDims {φ₁ φ₂ : FTy} (prec : Option ContractPrecision) (X : FVec Ideal ⟨2, ![N, A]⟩ φ₁)
    (W : FVec Ideal ⟨2, ![A, B]⟩ φ₂) :
    Host.dotGeneral (F := Ideal) (plainDotDims N A B wf) prec X W
      = fun i => ∑ k : Fin A, X (ix2 (i 0) k) * W (ix2 k (i 1)) := by
  funext i
  obtain ⟨r, f, rfl⟩ : ∃ (r : Fin N) (f : Fin B), i = ix2 r f := ⟨i 0, i 1, eq_ix2 i⟩
  exact dotGeneral_plainDims_apply wf prec X W r f

end DotLiteral

/-- THE WHOLE PRODUCT, for ANY dimension numbers with the plain product's fields (a record given by its fields: the six
    hypotheses then hold by `rfl`): entry `(r, f)` is the sum over the inner coordinate `k` of `X (r, k) * W (k, f)`. -/
theorem dotGeneral_mm {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) :
    Host.dotGeneral (F := Ideal) d prec X W = fun i => ∑ k : Fin A, X (ix2 (i 0) k) * W (ix2 k (i 1)) := by
  obtain ⟨lc, rc, ln, rn, lb, rb, wf⟩ := d
  simp only at h1 h2 h3 h4 h5 h6
  subst h1 h2 h3 h4 h5 h6
  exact dotGeneral_plainDims wf prec X W

/-- The same at row `r`, column `f`. -/
theorem dotGeneral_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂)
    (r : Fin N) (f : Fin B) :
    Host.dotGeneral (F := Ideal) d prec X W (ix2 r f) = ∑ k : Fin A, X (ix2 r k) * W (ix2 k f) :=
  congrFun (dotGeneral_mm d h1 h2 h3 h4 h5 h6 prec X W) (ix2 r f)

/-- The whole product as the matrix-product operator `ChebAlgebra.mm`. -/
theorem dotGeneral_eq_mm {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) :
    Host.dotGeneral (F := Ideal) d prec X W = ChebAlgebra.mm X W :=
  dotGeneral_mm d h1 h2 h3 h4 h5 h6 prec X W

/-! ## (L2) One matrix of a stack: `W[κ]` -/

section Stack
variable {α : Type} {K : Nat}

/-- Slice `κ` of a stack `[K, A, B]` of matrices, cut out as `[1, A, B]` and viewed as `[A, B]`, is the matrix
    `(a, b) ↦ W (κ, a, b)`. -/
theorem slice_stack (κ : Fin K) (W : (⟨3, ![K, A, B]⟩ : Shape).Idx → α)
    (hs : (⟨3, ![K, A, B]⟩ : Shape).Slices ![κ.val, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![κ.val, 0, 0] W hs) hc
      = fun j => W (ix3 κ (j 0) (j 1)) := by
  funext j
  obtain ⟨a, b, rfl⟩ : ∃ (a : Fin A) (b : Fin B), j = ix2 a b := ⟨j 0, j 1, eq_ix2 j⟩
  rw [shapeCast_1ab_ab_apply]
  refine extractStridedSlice_apply _ W hs _ (ix3 κ a b) (fun c => ?_)
  match c with
  | ⟨0, _⟩ => show κ.val = κ.val + 0; rfl
  | ⟨1, _⟩ => show a.val = 0 + a.val; exact (Nat.zero_add _).symm
  | ⟨2, _⟩ => show b.val = 0 + b.val; exact (Nat.zero_add _).symm

/-- The first matrix of a stack of three. -/
theorem slice_stack3_0 (W : (⟨3, ![3, A, B]⟩ : Shape).Idx → α)
    (hs : (⟨3, ![3, A, B]⟩ : Shape).Slices ![0, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![0, 0, 0] W hs) hc
      = fun j => W (ix3 (0 : Fin 3) (j 0) (j 1)) :=
  slice_stack (0 : Fin 3) W hs hc

/-- The second matrix of a stack of three. -/
theorem slice_stack3_1 (W : (⟨3, ![3, A, B]⟩ : Shape).Idx → α)
    (hs : (⟨3, ![3, A, B]⟩ : Shape).Slices ![1, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![1, 0, 0] W hs) hc
      = fun j => W (ix3 (1 : Fin 3) (j 0) (j 1)) :=
  slice_stack (1 : Fin 3) W hs hc

/-- The third matrix of a stack of three. -/
theorem slice_stack3_2 (W : (⟨3, ![3, A, B]⟩ : Shape).Idx → α)
    (hs : (⟨3, ![3, A, B]⟩ : Shape).Slices ![2, 0, 0] ⟨3, ![1, A, B]⟩)
    (hc : (⟨3, ![1, A, B]⟩ : Shape).ShapeCasts ⟨2, ![A, B]⟩) :
    shapeCast ⟨2, ![A, B]⟩ (extractStridedSlice ⟨3, ![1, A, B]⟩ ![2, 0, 0] W hs) hc
      = fun j => W (ix3 (2 : Fin 3) (j 0) (j 1)) :=
  slice_stack (2 : Fin 3) W hs hc

end Stack

/-! ## (L3) A bias row broadcast over the rows of a matrix -/

section Bias
variable {α : Type}

/-- A vector `[B]` made a row `[1, B]` by a broadcast, read at `(0, f)`. -/
theorem bcast_row_apply (b : (⟨1, ![B]⟩ : Shape).Idx → α)
    (h1 : (⟨1, ![B]⟩ : Shape).BroadcastsInDim ⟨2, ![1, B]⟩ ![1]) (u : Fin 1) (f : Fin B) :
    broadcastInDim ⟨2, ![1, B]⟩ ![1] h1 b (ix2 u f) = b (ix1 f) := by
  refine broadcastInDim_apply _ h1 b _ (ix1 f) (fun c => ?_)
  match c with
  | ⟨0, _⟩ =>
    show f.val = if B = 1 then 0 else f.val
    split_ifs with hB
    · have := f.isLt; omega
    · rfl

/-- A row `[1, B]` repeated down the `N` rows of a matrix, read at `(n, f)`. -/
theorem bcast_rows_apply (v : (⟨2, ![1, B]⟩ : Shape).Idx → α)
    (h2 : (⟨2, ![1, B]⟩ : Shape).BroadcastsInDim ⟨2, ![N, B]⟩ ![0, 1]) (n : Fin N) (f : Fin B) :
    broadcastInDim ⟨2, ![N, B]⟩ ![0, 1] h2 v (ix2 n f) = v (ix2 (0 : Fin 1) f) := by
  refine broadcastInDim_apply _ h2 v _ (ix2 (0 : Fin 1) f) (fun c => ?_)
  match c with
  | ⟨0, _⟩ =>
    show (0 : ℕ) = if (1 : ℕ) = 1 then 0 else n.val
    rw [if_pos rfl]
  | ⟨1, _⟩ =>
    show f.val = if B = 1 then 0 else f.val
    split_ifs with hB
    · have := f.isLt; omega
    · rfl

/-- (a) THE BIAS, two broadcasts: a vector `[B]` made a row and repeated down the rows is `(n, f) ↦ b f`. -/
theorem bias_bcast_bcast (b : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![N, B]⟩ ![0, 1]) :
    broadcastInDim ⟨2, ![N, B]⟩ ![0, 1] h2 (broadcastInDim ⟨2, ![1, B]⟩ ![1] h1 b) = fun i => b (ix1 (i 1)) := by
  funext i
  obtain ⟨n, f, rfl⟩ : ∃ (n : Fin N) (f : Fin B), i = ix2 n f := ⟨i 0, i 1, eq_ix2 i⟩
  rw [bcast_rows_apply, bcast_row_apply]
  rfl

/-- (b) THE BIAS, a shape cast then a broadcast: a vector `[B]` viewed as a row and repeated down the rows is
    `(n, f) ↦ b f`. -/
theorem bias_cast_bcast (b : (⟨1, ![B]⟩ : Shape).Idx → α)
    (hc : (⟨1, ![B]⟩ : Shape).ShapeCasts ⟨2, ![1, B]⟩)
    (h2 : (⟨2, ![1, B]⟩ : Shape).BroadcastsInDim ⟨2, ![N, B]⟩ ![0, 1]) :
    broadcastInDim ⟨2, ![N, B]⟩ ![0, 1] h2 (shapeCast ⟨2, ![1, B]⟩ b hc) = fun i => b (ix1 (i 1)) := by
  funext i
  obtain ⟨n, f, rfl⟩ : ∃ (n : Fin N) (f : Fin B), i = ix2 n f := ⟨i 0, i 1, eq_ix2 i⟩
  rw [bcast_rows_apply, shapeCast_a_1a_apply]
  rfl

/-- (c) A vector `[B]` viewed as a row, read at `(0, f)`. -/
theorem cast_row_apply (b : (⟨1, ![B]⟩ : Shape).Idx → α) (hc : (⟨1, ![B]⟩ : Shape).ShapeCasts ⟨2, ![1, B]⟩)
    (f : Fin B) : (shapeCast ⟨2, ![1, B]⟩ b hc) (ix2 (0 : Fin 1) f) = b (ix1 f) :=
  shapeCast_a_1a_apply b hc 0 f

end Bias

/-! ## (L4) A broadcast scalar -/

/-- A scalar array broadcast to any shape is constant. -/
theorem bcast_scalar {α : Type} (s : Shape) (c : (⟨0, ![]⟩ : Shape).Idx → α)
    (h : (⟨0, ![]⟩ : Shape).BroadcastsInDim s ![]) : broadcastInDim s ![] h c = fun _ => c ix0 := by
  funext j
  exact broadcastInDim_apply _ h c j ix0 (fun a => a.elim0)

/-- A scalar float constant broadcast to any shape is the extended real its word encodes, everywhere. -/
theorem bcast_constant {φ : FTy} (s : Shape) (w : BitVec φ.bits) (h : (⟨0, ![]⟩ : Shape).BroadcastsInDim s ![]) :
    broadcastInDim s ![] h (constant (F := Ideal) ⟨0, ![]⟩ φ w) = fun _ => Ideal.ofBits φ w := by
  rw [bcast_scalar]
  rfl

/-- The `f32` word `0x40000000` is the real number 2. -/
theorem ofBits_two_f32 : Ideal.ofBits .f32 0x40000000#32 = ((2 : ℝ) : EReal) := by
  simp [Ideal.ofBits, Ideal.ieee]
  norm_cast
  norm_num

/-! ## (L5) Pointwise arithmetic on whole arrays -/

section Pointwise
variable {s : Shape} {φ : FTy}

/-- A sum of arrays is the pointwise sum. -/
theorem addf_fun (a b : FVec Ideal s φ) : addf a b = fun i => a i + b i := rfl
/-- A difference of arrays is the pointwise difference. -/
theorem subf_fun (a b : FVec Ideal s φ) : subf a b = fun i => a i - b i := rfl
/-- A product of arrays is the pointwise product. -/
theorem mulf_fun (a b : FVec Ideal s φ) : mulf a b = fun i => a i * b i := rfl
/-- A maximum of arrays is the pointwise maximum. -/
theorem maximumf_fun (a b : FVec Ideal s φ) : maximumf a b = fun i => max (a i) (b i) := rfl
/-- A negated array is the pointwise negation. -/
theorem negf_fun (a : FVec Ideal s φ) : negf a = fun i => - a i := rfl
/-- A narrowing change of float format is the identity on extended reals. -/
theorem truncf_fun {ψ : FTy} (a : FVec Ideal s φ) (h : ψ.bits < φ.bits) : (truncf ψ a h : FVec Ideal s ψ) = a := rfl
/-- A widening change of float format is the identity on extended reals. -/
theorem extf_fun {ψ : FTy} (a : FVec Ideal s φ) (h : φ.bits < ψ.bits) : (extf ψ a h : FVec Ideal s ψ) = a := rfl

end Pointwise

end HostForms

end
-- ==== Proof.Spec.lean ====
/-
  The dense layers of the network, as functions on arrays of extended reals, and the host program's spelling of each.

  * `reluBias Z b` : entry (n, f) is max (Z (n, f) + b f, 0) — a bias row added to every row of a matrix, then the
    positive part.
  * `addBias Z b` : entry (n, f) is Z (n, f) + b f.
  * the matrix product is `ChebAlgebra.mm`: entry (n, f) is the sum over k of X (n, k) · W (k, f).

  The host spells the bias as a vector broadcast to a row and the row broadcast down the rows, the positive part as the
  maximum with a broadcast zero constant, and the product as a `dot_general` with the plain dimension numbers.
-/
import proofs.«158527_j87737591923132_1_alg».proof.Proof.LibHostForms

noncomputable section

open scoped BigOperators

namespace Cert.GcnSpec

open Idealize.ShloMosaic Idealize.ShloMosaic.ValueIdx

variable {N A B : Nat}

/-- A bias row added to every row of a matrix, then the positive part. -/
def reluBias (Z : (⟨2, ![N, B]⟩ : Shape).Idx → EReal) (b : (⟨1, ![B]⟩ : Shape).Idx → EReal) :
    (⟨2, ![N, B]⟩ : Shape).Idx → EReal :=
  fun i => max (Z i + b (ix1 (i 1))) 0

/-- A bias row added to every row of a matrix. -/
def addBias (Z : (⟨2, ![N, B]⟩ : Shape).Idx → EReal) (b : (⟨1, ![B]⟩ : Shape).Idx → EReal) :
    (⟨2, ![N, B]⟩ : Shape).Idx → EReal :=
  fun i => Z i + b (ix1 (i 1))

/-- `reluBias` with the bias given as a one-row matrix. -/
def reluBiasRow (Z : (⟨2, ![N, B]⟩ : Shape).Idx → EReal) (r : (⟨2, ![1, B]⟩ : Shape).Idx → EReal) :
    (⟨2, ![N, B]⟩ : Shape).Idx → EReal :=
  fun i => max (Z i + r (ix2 (0 : Fin 1) (i 1))) 0

/-- `addBias` with the bias given as a one-row matrix. -/
def addBiasRow (Z : (⟨2, ![N, B]⟩ : Shape).Idx → EReal) (r : (⟨2, ![1, B]⟩ : Shape).Idx → EReal) :
    (⟨2, ![N, B]⟩ : Shape).Idx → EReal :=
  fun i => Z i + r (ix2 (0 : Fin 1) (i 1))

/-- A vector viewed as a one-row matrix is that bias. -/
theorem reluBiasRow_cast (Z : (⟨2, ![N, B]⟩ : Shape).Idx → EReal) (x : (⟨1, ![B]⟩ : Shape).Idx → EReal)
    (hc : (⟨1, ![B]⟩ : Shape).ShapeCasts ⟨2, ![1, B]⟩) :
    reluBiasRow Z (shapeCast ⟨2, ![1, B]⟩ x hc) = reluBias Z x := by
  funext i
  exact congrArg (fun z => max (Z i + z) 0) (HostForms.cast_row_apply x hc (i 1))

theorem addBiasRow_cast (Z : (⟨2, ![N, B]⟩ : Shape).Idx → EReal) (x : (⟨1, ![B]⟩ : Shape).Idx → EReal)
    (hc : (⟨1, ![B]⟩ : Shape).ShapeCasts ⟨2, ![1, B]⟩) :
    addBiasRow Z (shapeCast ⟨2, ![1, B]⟩ x hc) = addBias Z x := by
  funext i
  exact congrArg (fun z => Z i + z) (HostForms.cast_row_apply x hc (i 1))

/-- The host's bias addition: the vector broadcast to a row, the row broadcast down the rows, added. -/
theorem host_addBias (Z : FVec Ideal ⟨2, ![N, B]⟩ .f32) (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![N, B]⟩ ![0, 1]) :
    addf Z (broadcastInDim ⟨2, ![N, B]⟩ ![0, 1] h2 (broadcastInDim ⟨2, ![1, B]⟩ ![1] h1 b)) = addBias Z b := by
  rw [HostForms.bias_bcast_bcast]
  rfl

/-- The host's positive part of a biased matrix: the maximum with a broadcast zero. -/
theorem host_reluBias (Z : FVec Ideal ⟨2, ![N, B]⟩ .f32) (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![N, B]⟩ ![0, 1])
    (h0 : (⟨0, ![]⟩ : Shape).BroadcastsInDim ⟨2, ![N, B]⟩ ![]) :
    maximumf (addf Z (broadcastInDim ⟨2, ![N, B]⟩ ![0, 1] h2 (broadcastInDim ⟨2, ![1, B]⟩ ![1] h1 b)))
        (broadcastInDim ⟨2, ![N, B]⟩ ![] h0 (constant (F := Ideal) ⟨0, ![]⟩ .f32 0x00000000#32))
      = reluBias Z b := by
  rw [HostForms.bias_bcast_bcast, HostForms.bcast_constant, Ideal.ofBits_zero_f32]
  rfl

end Cert.GcnSpec

end
-- ==== Proof.Keep.lean ====
/-
  Buffers that a segment of the kernel program does not write keep their contents across it: a host stretch changes only
  the buffers its operations write, a grid region only its windows' arrays. So the edge rows, the edge normalisation and
  the inverse degree (written in the first stretch) are still there when the later stretches read them, and every
  argument array holds its launch contents wherever it is read.
-/
import proofs.«158527_j87737591923132_1_alg».proof.Proof.Gen.KernelIdeal.Frame
import proofs.«158527_j87737591923132_1_alg».proof.Proof.Gen.ReferenceIdeal.Read
import proofs.«158527_j87737591923132_1_alg».proof.Proof.Spec
import Idealize.ShloMosaic.Lib.StableHlo.Run
import Idealize.ShloMosaic.Lib.Pipeline.Value
import Idealize.ShloMosaic.Lib.ValueLayout

set_option maxRecDepth 16384

noncomputable section

namespace Cert.KernelIdeal.GcnKeep

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)

/-- No operation of a host stretch writes the buffer. -/
macro "keep_host" : tactic => `(tactic|
  exact StableHlo.after_of_forall_not_mem _ _ (List.forall_iff_forall_mem.mp (by
    simp only [hostOps0, hostOps1, hostOps2, hostOps3, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide))))

/-! ## What the first stretch wrote, where the later stretches read it -/

theorem v1_2 : W2 m ρ c (Proc.devRef .tc main_v1) = W1 m ρ c (Proc.devRef .tc main_v1) := W2_of_ne m ρ c main_v1 (by decide)
theorem v1_3 : W3 m ρ c (Proc.devRef .tc main_v1) = W2 m ρ c (Proc.devRef .tc main_v1) := by keep_host
theorem v1_4 : W4 m ρ c (Proc.devRef .tc main_v1) = W1 m ρ c (Proc.devRef .tc main_v1) :=
  (W4_of_ne m ρ c main_v1 (by decide)).trans ((v1_3 m ρ c).trans (v1_2 m ρ c))

theorem v3_2 : W2 m ρ c (Proc.devRef .tc main_v3) = W1 m ρ c (Proc.devRef .tc main_v3) := W2_of_ne m ρ c main_v3 (by decide)
theorem v3_3 : W3 m ρ c (Proc.devRef .tc main_v3) = W2 m ρ c (Proc.devRef .tc main_v3) := by keep_host
theorem v3_4 : W4 m ρ c (Proc.devRef .tc main_v3) = W1 m ρ c (Proc.devRef .tc main_v3) :=
  (W4_of_ne m ρ c main_v3 (by decide)).trans ((v3_3 m ρ c).trans (v3_2 m ρ c))

theorem v25_2 : W2 m ρ c (Proc.devRef .tc main_v25) = W1 m ρ c (Proc.devRef .tc main_v25) := W2_of_ne m ρ c main_v25 (by decide)
theorem v25_3 : W3 m ρ c (Proc.devRef .tc main_v25) = W2 m ρ c (Proc.devRef .tc main_v25) := by keep_host
theorem v25_4 : W4 m ρ c (Proc.devRef .tc main_v25) = W1 m ρ c (Proc.devRef .tc main_v25) :=
  (W4_of_ne m ρ c main_v25 (by decide)).trans ((v25_3 m ρ c).trans (v25_2 m ρ c))

theorem v27_2 : W2 m ρ c (Proc.devRef .tc main_v27) = W1 m ρ c (Proc.devRef .tc main_v27) := W2_of_ne m ρ c main_v27 (by decide)
theorem v27_3 : W3 m ρ c (Proc.devRef .tc main_v27) = W2 m ρ c (Proc.devRef .tc main_v27) := by keep_host
theorem v27_4 : W4 m ρ c (Proc.devRef .tc main_v27) = W1 m ρ c (Proc.devRef .tc main_v27) :=
  (W4_of_ne m ρ c main_v27 (by decide)).trans ((v27_3 m ρ c).trans (v27_2 m ρ c))

/-! ## The argument arrays where they are read -/

theorem k0 (b : Ref sig .tc) (h : W1 m ρ c (Proc.devRef .tc b) = W0 m ρ c (Proc.devRef .tc b)) :
    W1 m ρ c (Proc.devRef .tc b) = m ((c : Thread nD τ).loc b) := h.trans rfl

theorem a0_1 : W1 m ρ c (Proc.devRef .tc main_arg0) = x0 := k0 m ρ c main_arg0 (by keep_host)
theorem a4_1 : W1 m ρ c (Proc.devRef .tc main_arg4) = x4 := k0 m ρ c main_arg4 (by keep_host)
theorem a5_2 : W2 m ρ c (Proc.devRef .tc main_arg5) = x5 :=
  (W2_of_ne m ρ c main_arg5 (by decide)).trans (k0 m ρ c main_arg5 (by keep_host))
theorem a6_2 : W2 m ρ c (Proc.devRef .tc main_arg6) = x6 :=
  (W2_of_ne m ρ c main_arg6 (by decide)).trans (k0 m ρ c main_arg6 (by keep_host))
theorem a6_3 : W3 m ρ c (Proc.devRef .tc main_arg6) = x6 :=
  (by keep_host : W3 m ρ c (Proc.devRef .tc main_arg6) = W2 m ρ c (Proc.devRef .tc main_arg6)).trans (a6_2 m ρ c)
theorem a7_2 : W2 m ρ c (Proc.devRef .tc main_arg7) = x7 :=
  (W2_of_ne m ρ c main_arg7 (by decide)).trans (k0 m ρ c main_arg7 (by keep_host))
theorem a7_4 : W4 m ρ c (Proc.devRef .tc main_arg7) = x7 :=
  (W4_of_ne m ρ c main_arg7 (by decide)).trans
    ((by keep_host : W3 m ρ c (Proc.devRef .tc main_arg7) = W2 m ρ c (Proc.devRef .tc main_arg7)).trans (a7_2 m ρ c))

theorem a2_6 : W6 m ρ c (Proc.devRef .tc main_arg2) = x2 :=
  ((W8_of_ne m ρ c main_arg2 (by decide)).trans
    (by keep_host : W7 m ρ c (Proc.devRef .tc main_arg2) = W6 m ρ c (Proc.devRef .tc main_arg2))).symm.trans (W8_main_arg2 m ρ c)

theorem a3_6 : W6 m ρ c (Proc.devRef .tc main_arg3) = x3 :=
  ((W8_of_ne m ρ c main_arg3 (by decide)).trans
    (by keep_host : W7 m ρ c (Proc.devRef .tc main_arg3) = W6 m ρ c (Proc.devRef .tc main_arg3))).symm.trans (W8_main_arg3 m ρ c)

theorem a9_6 : W6 m ρ c (Proc.devRef .tc main_arg9) = x9 :=
  ((W8_of_ne m ρ c main_arg9 (by decide)).trans
    (by keep_host : W7 m ρ c (Proc.devRef .tc main_arg9) = W6 m ρ c (Proc.devRef .tc main_arg9))).symm.trans (W8_main_arg9 m ρ c)

theorem a11_6 : W6 m ρ c (Proc.devRef .tc main_arg11) = x11 :=
  ((W8_of_ne m ρ c main_arg11 (by decide)).trans
    (by keep_host : W7 m ρ c (Proc.devRef .tc main_arg11) = W6 m ρ c (Proc.devRef .tc main_arg11))).symm.trans (W8_main_arg11 m ρ c)

theorem a8_7 : W7 m ρ c (Proc.devRef .tc main_arg8) = x8 :=
  ((W8_arr m ρ c 1).trans (((dat3 (V7 m ρ) c).arrAt_in 1 rfl _).trans (A_eq3 (V7 m ρ) c 1))).symm.trans
    (W8_main_arg8 m ρ c)

theorem a10_7 : W7 m ρ c (Proc.devRef .tc main_arg10) = x10 :=
  ((W8_arr m ρ c 3).trans (((dat3 (V7 m ρ) c).arrAt_in 3 rfl _).trans (A_eq3 (V7 m ρ) c 3))).symm.trans
    (W8_main_arg10 m ρ c)

end Cert.KernelIdeal.GcnKeep
end
-- ==== Proof.HostA1.lean ====
/-
  The host operations of stretch 0 of the kernel program, read back: the symmetric edge normalisation.
  Each buffer the stretch writes is the composition of the operations that lead to it, applied to the contents the
  stretch found; with those contents given as the reference program's stages of the arguments, the composition is the
  reference's next stage (the two programs spell these operations identically).
-/
import proofs.«158527_j87737591923132_1_alg».proof.Proof.Gen.KernelIdeal.Frame
import proofs.«158527_j87737591923132_1_alg».proof.Proof.Gen.ReferenceIdeal.Read
import proofs.«158527_j87737591923132_1_alg».proof.Proof.Spec
import Idealize.ShloMosaic.Lib.StableHlo.Run
import Idealize.ShloMosaic.Lib.Pipeline.Value
import Idealize.ShloMosaic.Lib.ValueLayout

set_option maxRecDepth 16384

noncomputable section

namespace Cert.KernelIdeal.HostA1

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)

set_option maxHeartbeats 16000000 in
/-- The edge normalisation rsqrt(deg)[src] * rsqrt(deg)[dst], of the edge list. -/
theorem v25_1 : W1 m ρ c (Proc.devRef .tc main_v25) = Cert.ReferenceIdeal.Read.val_main_v26 (F := Ideal) x1 := by
  show StableHlo.after hostOps0 (W0 m ρ c) (Proc.devRef .tc main_v25) = _
  after_results
  rfl

end Cert.KernelIdeal.HostA1
end
-- ==== Proof.HostA2.lean ====
/-
  The host operations of stretch 0 of the kernel program, read back: the two rows of the edge list and the inverse degree.
  Each buffer the stretch writes is the composition of the operations that lead to it, applied to the contents the
  stretch found; with those contents given as the reference program's stages of the arguments, the composition is the
  reference's next stage (the two programs spell these operations identically).
-/
import proofs.«158527_j87737591923132_1_alg».proof.Proof.Gen.KernelIdeal.Frame
import proofs.«158527_j87737591923132_1_alg».proof.Proof.Gen.ReferenceIdeal.Read
import proofs.«158527_j87737591923132_1_alg».proof.Proof.Spec
import Idealize.ShloMosaic.Lib.StableHlo.Run
import Idealize.ShloMosaic.Lib.Pipeline.Value
import Idealize.ShloMosaic.Lib.ValueLayout

set_option maxRecDepth 16384

noncomputable section

namespace Cert.KernelIdeal.HostA2

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)

set_option maxHeartbeats 16000000 in
/-- The source row of the edge list. -/
theorem v1_1 : W1 m ρ c (Proc.devRef .tc main_v1) = Cert.ReferenceIdeal.Read.val_main_v1 (F := Ideal) x1 := by
  show StableHlo.after hostOps0 (W0 m ρ c) (Proc.devRef .tc main_v1) = _
  after_results
  rfl

set_option maxHeartbeats 16000000 in
/-- The destination row of the edge list. -/
theorem v3_1 : W1 m ρ c (Proc.devRef .tc main_v3) = Cert.ReferenceIdeal.Read.val_main_v3 (F := Ideal) x1 := by
  show StableHlo.after hostOps0 (W0 m ρ c) (Proc.devRef .tc main_v3) = _
  after_results
  rfl

set_option maxHeartbeats 16000000 in
/-- The inverse degree 1 / deg. -/
theorem v27_1 : W1 m ρ c (Proc.devRef .tc main_v27) = Cert.ReferenceIdeal.Read.val_main_v41 (F := Ideal) x1 := by
  show StableHlo.after hostOps0 (W0 m ρ c) (Proc.devRef .tc main_v27) = _
  after_results
  rfl

end Cert.KernelIdeal.HostA2
end
-- ==== Proof.HostB.lean ====
/-
  The host operations of stretch 1 of the kernel program, read back: the first layer's aggregation and its bias row.
  Each buffer the stretch writes is the composition of the operations that lead to it, applied to the contents the
  stretch found; with those contents given as the reference program's stages of the arguments, the composition is the
  reference's next stage (the two programs spell these operations identically).
-/
import proofs.«158527_j87737591923132_1_alg».proof.Proof.Gen.KernelIdeal.Frame
import proofs.«158527_j87737591923132_1_alg».proof.Proof.Gen.ReferenceIdeal.Read
import proofs.«158527_j87737591923132_1_alg».proof.Proof.Spec
import Idealize.ShloMosaic.Lib.StableHlo.Run
import Idealize.ShloMosaic.Lib.Pipeline.Value
import Idealize.ShloMosaic.Lib.ValueLayout

set_option maxRecDepth 16384

noncomputable section

namespace Cert.KernelIdeal.HostB

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)

set_option maxHeartbeats 16000000 in
/-- The first layer's aggregated features: the normalised neighbour sum plus the self term. -/
theorem v45_3
    (h28 : W2 m ρ c (Proc.devRef .tc main_v28) = Cert.ReferenceIdeal.Read.val_main_v4 (F := Ideal) x0 x4)
    (h1 : W2 m ρ c (Proc.devRef .tc main_v1) = Cert.ReferenceIdeal.Read.val_main_v1 (F := Ideal) x1)
    (h3 : W2 m ρ c (Proc.devRef .tc main_v3) = Cert.ReferenceIdeal.Read.val_main_v3 (F := Ideal) x1)
    (h25 : W2 m ρ c (Proc.devRef .tc main_v25) = Cert.ReferenceIdeal.Read.val_main_v26 (F := Ideal) x1)
    (h27 : W2 m ρ c (Proc.devRef .tc main_v27) = Cert.ReferenceIdeal.Read.val_main_v41 (F := Ideal) x1) :
    W3 m ρ c (Proc.devRef .tc main_v45) = Cert.ReferenceIdeal.Read.val_main_v45 (F := Ideal) x0 x1 x4 := by
  show StableHlo.after hostOps1 (W2 m ρ c) (Proc.devRef .tc main_v45) = _
  after_results
  rw [h28, h1, h3, h25, h27]
  rfl

set_option maxHeartbeats 16000000 in
/-- The first bias, as a row. -/
theorem v46_3 (h5 : W2 m ρ c (Proc.devRef .tc main_arg5) = x5) :
    W3 m ρ c (Proc.devRef .tc main_v46) = shapeCast S1x64 x5 shapeCasts_S64_S1x64 := by
  show StableHlo.after hostOps1 (W2 m ρ c) (Proc.devRef .tc main_v46) = _
  after_results
  rw [h5]
  rfl

end Cert.KernelIdeal.HostB
end
-- ==== Proof.HostC.lean ====
/-
  The host operations of stretch 2 of the kernel program, read back: the second layer's aggregation and its bias row.
  Each buffer the stretch writes is the composition of the operations that lead to it, applied to the contents the
  stretch found; with those contents given as the reference program's stages of the arguments, the composition is the
  reference's next stage (the two programs spell these operations identically).
-/
import proofs.«158527_j87737591923132_1_alg».proof.Proof.Gen.KernelIdeal.Frame
import proofs.«158527_j87737591923132_1_alg».proof.Proof.Gen.ReferenceIdeal.Read
import proofs.«158527_j87737591923132_1_alg».proof.Proof.Spec
import Idealize.ShloMosaic.Lib.StableHlo.Run
import Idealize.ShloMosaic.Lib.Pipeline.Value
import Idealize.ShloMosaic.Lib.ValueLayout

set_option maxRecDepth 16384

noncomputable section

namespace Cert.KernelIdeal.HostC

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)

set_option maxHeartbeats 16000000 in
/-- The second layer's aggregated features: the normalised neighbour sum plus the self term. -/
theorem v64_5
    (h47 : W4 m ρ c (Proc.devRef .tc main_v47) = Cert.ReferenceIdeal.Read.val_main_v50 (F := Ideal) x0 x1 x4 x5 x6)
    (h1 : W4 m ρ c (Proc.devRef .tc main_v1) = Cert.ReferenceIdeal.Read.val_main_v1 (F := Ideal) x1)
    (h3 : W4 m ρ c (Proc.devRef .tc main_v3) = Cert.ReferenceIdeal.Read.val_main_v3 (F := Ideal) x1)
    (h25 : W4 m ρ c (Proc.devRef .tc main_v25) = Cert.ReferenceIdeal.Read.val_main_v72 (F := Ideal) x1)
    (h27 : W4 m ρ c (Proc.devRef .tc main_v27) = Cert.ReferenceIdeal.Read.val_main_v87 (F := Ideal) x1) :
    W5 m ρ c (Proc.devRef .tc main_v64) = Cert.ReferenceIdeal.Read.val_main_v91 (F := Ideal) x0 x1 x4 x5 x6 := by
  show StableHlo.after hostOps2 (W4 m ρ c) (Proc.devRef .tc main_v64) = _
  after_results
  rw [h47, h1, h3, h25, h27]
  rfl

set_option maxHeartbeats 16000000 in
/-- The second bias, as a row. -/
theorem v65_5 (h7 : W4 m ρ c (Proc.devRef .tc main_arg7) = x7) :
    W5 m ρ c (Proc.devRef .tc main_v65) = shapeCast S1x64 x7 shapeCasts_S64_S1x64 := by
  show StableHlo.after hostOps2 (W4 m ρ c) (Proc.devRef .tc main_v65) = _
  after_results
  rw [h7]
  rfl

end Cert.KernelIdeal.HostC
end
-- ==== Proof.HostD.lean ====
/-
  The host operations of stretch 3 of the kernel program, read back: the per-graph mean pooling, the pair features and the regressor's bias rows.
  Each buffer the stretch writes is the composition of the operations that lead to it, applied to the contents the
  stretch found; with those contents given as the reference program's stages of the arguments, the composition is the
  reference's next stage (the two programs spell these operations identically).
-/
import proofs.«158527_j87737591923132_1_alg».proof.Proof.Gen.KernelIdeal.Frame
import proofs.«158527_j87737591923132_1_alg».proof.Proof.Gen.ReferenceIdeal.Read
import proofs.«158527_j87737591923132_1_alg».proof.Proof.Spec
import Idealize.ShloMosaic.Lib.StableHlo.Run
import Idealize.ShloMosaic.Lib.Pipeline.Value
import Idealize.ShloMosaic.Lib.ValueLayout

set_option maxRecDepth 16384

noncomputable section

namespace Cert.KernelIdeal.HostD

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)

set_option maxHeartbeats 16000000 in
/-- The pair features: the pooled embeddings of each pair's two graphs, side by side. -/
theorem v97_7
    (h66 : W6 m ρ c (Proc.devRef .tc main_v66) = Cert.ReferenceIdeal.Read.val_main_v95 (F := Ideal) x0 x1 x4 x5 x6 x7)
    (h2 : W6 m ρ c (Proc.devRef .tc main_arg2) = x2)
    (h3 : W6 m ρ c (Proc.devRef .tc main_arg3) = x3) :
    W7 m ρ c (Proc.devRef .tc main_v97) = Cert.ReferenceIdeal.Read.val_main_v126 (F := Ideal) x0 x1 x2 x3 x4 x5 x6 x7 := by
  show StableHlo.after hostOps3 (W6 m ρ c) (Proc.devRef .tc main_v97) = _
  after_results
  rw [h66, h2, h3]
  rfl

set_option maxHeartbeats 16000000 in
/-- The hidden layer's bias, as a row. -/
theorem v98_7 (h9 : W6 m ρ c (Proc.devRef .tc main_arg9) = x9) :
    W7 m ρ c (Proc.devRef .tc main_v98) = shapeCast S1x256 x9 shapeCasts_S256_S1x256 := by
  show StableHlo.after hostOps3 (W6 m ρ c) (Proc.devRef .tc main_v98) = _
  after_results
  rw [h9]
  rfl

set_option maxHeartbeats 16000000 in
/-- The output layer's bias, as a row. -/
theorem v99_7 (h11 : W6 m ρ c (Proc.devRef .tc main_arg11) = x11) :
    W7 m ρ c (Proc.devRef .tc main_v99) = shapeCast S1x1 x11 shapeCasts_S1_S1x1 := by
  show StableHlo.after hostOps3 (W6 m ρ c) (Proc.devRef .tc main_v99) = _
  after_results
  rw [h11]
  rfl

end Cert.KernelIdeal.HostD
end
-- ==== Proof.LibMatmulForms.lean ====
/-
  A kernel matrix product `[N, A] × [A, B]` accumulated into `acc`, at the ideal instance, read at row `r` and column
  `f`: the accumulator's entry plus the sum over the inner coordinate `k` of `X (r, k) · W (k, f)` — for any dimension
  numbers whose fields are the plain product's (contract the left operand's axis 1 with the right operand's axis 0,
  no batch axes). The host's `dot_general` with the same dimension numbers is the same sum without the accumulator, so
  the statement is read off that one.
-/
import proofs.«158527_j87737591923132_1_alg».proof.Proof.LibHostForms

noncomputable section

open scoped BigOperators

namespace MatmulForms

open Idealize.ShloMosaic Idealize.ShloMosaic.ValueIdx

variable {N A B : Nat}

/-- The kernel's product at `(r, f)`: the accumulator there plus the inner sum. -/
theorem matmul_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂)
    (acc : FVec Ideal ⟨2, ![N, B]⟩ .f32) (r : Fin N) (f : Fin B) :
    FloatOps.matmul d prec X W acc (ix2 r f) = acc (ix2 r f) + ∑ k : Fin A, X (ix2 r k) * W (ix2 k f) := by
  have e := HostForms.dotGeneral_mm_apply d h1 h2 h3 h4 h5 h6 prec X W r f
  rw [show Host.dotGeneral (F := Ideal) d prec X W (ix2 r f) = FloatOps.dotGeneral d prec .single X W (ix2 r f) from rfl,
    Ideal.dotGeneral_apply] at e
  rw [Ideal.matmul_apply, e]

/-- Into the zero accumulator: the inner sum alone. -/
theorem matmul_zero_mm_apply {φ₁ φ₂ : FTy} (d : DotDims ⟨2, ![N, A]⟩ ⟨2, ![A, B]⟩ ⟨2, ![N, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (X : FVec Ideal ⟨2, ![N, A]⟩ φ₁) (W : FVec Ideal ⟨2, ![A, B]⟩ φ₂) (r : Fin N) (f : Fin B) :
    FloatOps.matmul d prec X W (constant ⟨2, ![N, B]⟩ .f32 0x00000000#32) (ix2 r f) = ∑ k : Fin A, X (ix2 r k) * W (ix2 k f) := by
  rw [matmul_mm_apply d h1 h2 h3 h4 h5 h6]
  show Ideal.ofBits .f32 0x00000000#32 + _ = _
  rw [Ideal.ofBits_zero_f32, zero_add]

end MatmulForms

end
-- ==== Proof.Val0.lean ====
/-
  Region 0 (the first layer's feature map): the output array after the region, as one function of the region's input
  arrays. The grid has 50 points; point t loads rows [10000 t, 10000 t + 10000) of the node features and the whole
  64 x 64 weight, and writes back their product for those rows (the narrowing of the operands to a shorter float format
  is the identity on the extended reals, and the accumulator starts at zero). The 50 row blocks tile the 500000 rows, so
  the array ends holding the sum over k of X (n, k) * W (k, f) at every (n, f).
-/
import proofs.«158527_j87737591923132_1_alg».proof.Proof.Gen.KernelIdeal.Frame
import proofs.«158527_j87737591923132_1_alg».proof.Proof.Spec
import proofs.«158527_j87737591923132_1_alg».proof.Proof.LibMatmulForms
import Idealize.ShloMosaic.Lib.Pipeline.Value
import Idealize.ShloMosaic.Lib.ValueLayout

set_option maxRecDepth 16384

noncomputable section

open scoped BigOperators

namespace Cert.KernelIdeal.Val0

open Cert.KernelIdeal Cert.KernelIdeal.Gen Cert.GcnSpec
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an index: the row of the left block against the column of the weight. -/
theorem pay_apply (x0 : Vec Ideal S10000x64 .f32) (x1 : Vec Ideal S64x64 .f32) (j : S10000x64.Idx) :
    k0_pay1 (F := Ideal) x0 x1 j = ∑ k : Fin 64, x0 (ix2 (j 0) k) * x1 (ix2 k (j 1)) := by
  obtain ⟨p, q, rfl⟩ : ∃ (p : Fin 10000) (q : Fin 64), j = ix2 p q := ⟨j 0, j 1, eq_ix2 j⟩
  unfold k0_pay1
  exact MatmulForms.matmul_zero_mm_apply dot_S10000x64_S64x64_S10000x64_1_0_0_1_n_n rfl rfl rfl rfl rfl rfl none _ _ p q

/-- The index maps over the grid: the row-block windows sit at block (t, 0), the weight at block (0, 0). -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the whole-array product. -/
theorem flushed_eq (c : Dev nD) (t : Fin cfg0.N) :
    (dat0 V c).flushed 2 t = ((cfg0.win 2).blk t).view.read (Elt Ideal)
      (ChebAlgebra.mm (V c main_arg0) (V c main_arg4)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4, e5⟩ := idx_facts t
  funext j
  refine (pay_apply (iblk0 V c 0 t) (iblk0 V c 1 t) j).trans ?_
  let X : S500000x64.Idx → EReal := V c main_arg0
  let W : S64x64.Idx → EReal := V c main_arg4
  show ∑ k : Fin 64, X (((cfg0.win 0).blk t).view.emb (ix2 (j 0) k)) * W (((cfg0.win 1).blk t).view.emb (ix2 k (j 1)))
      = ∑ k : Fin 64, X (ix2 ((((cfg0.win 2).blk t).view.emb j) 0) k) * W (ix2 k ((((cfg0.win 2).blk t).view.emb j) 1))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  rw [h0, h1]
  rfl

/-- An index of the array is in point t's block iff each coordinate is in the block's range on its axis. -/
theorem mem_blk (t : Fin cfg0.N) (i : S500000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v28).slice (win0_2.rect t)).set ↔ _
  rw [View.set_slice_whole, Rect.mem_set_unit]
  exact Iff.rfl

/-- Row n lies in the block of point n / 10000. -/
theorem cover (i : S500000x64.Idx) :
    ∃ t : Fin cfg0.N, (cfg0.win 2).flush t = true ∧ i ∈ ((cfg0.win 2).blk t).view.set := by
  have hi0 : (i 0).val < 500000 := (i 0).isLt
  have hi1 : (i 1).val < 64 := (i 1).isLt
  have hN : grid0.N = 50 := N_0
  have ht : (i 0).val / 10000 < grid0.N := by omega
  obtain ⟨e0, e1, e2, e3, e4, e5⟩ := idx_facts ⟨(i 0).val / 10000, ht⟩
  refine ⟨⟨(i 0).val / 10000, ht⟩, flush0_2 _, ?_⟩
  rw [mem_blk]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    omega

/-- The output array after the region. -/
theorem final (c : Dev nD) :
    (dat0 V c).arrAt 2 cfg0.N = ChebAlgebra.mm (V c main_arg0) (V c main_arg4) :=
  (dat0 V c).arrAt_eq_of_cover 2 _ (fun t _ => flushed_eq V c t) cover

end Cert.KernelIdeal.Val0

end
-- ==== Proof.LibDenseBody.lean ====
/-
  Kernel-body forms of a dense layer read at an index, at the ideal values, for matrices of any sizes:

  * a bias row `[1, b]` (through an identity shape cast) broadcast down the rows and added to a matrix, at (p, q):
    the matrix's entry plus the row's entry of column q;
  * the same followed by the maximum with a broadcast zero scalar: the positive part of that sum.
-/
import Idealize.ShloMosaic.Lib.ValueIdx
import Idealize.ShloMosaic.Lib.Pipeline.Value
import Idealize.ShloMosaic.Lib.ValueLayout
import Idealize.ShloMosaic.PureOps.Ideal.Laws

noncomputable section

namespace Cert.DenseBody

open Idealize.ShloMosaic Idealize.ShloMosaic.ValueIdx

variable {a b : ℕ}

/-- A bias row broadcast down the rows and added, at (p, q). -/
theorem add_bias_row_apply (Z : FVec Ideal ⟨2, ![a, b]⟩ .f32) (x : FVec Ideal ⟨2, ![1, b]⟩ .f32)
    (hc : (⟨2, ![1, b]⟩ : Shape).ShapeCasts ⟨2, ![1, b]⟩) (hb : (⟨2, ![1, b]⟩ : Shape).Broadcasts ⟨2, ![a, b]⟩)
    (p : Fin a) (q : Fin b) :
    addf Z (broadcastTo ⟨2, ![a, b]⟩ (shapeCast ⟨2, ![1, b]⟩ x hc) hb) (ix2 p q)
      = Z (ix2 p q) + x (ix2 (0 : Fin 1) q) := by
  show Z (ix2 p q) + broadcastTo ⟨2, ![a, b]⟩ (shapeCast ⟨2, ![1, b]⟩ x hc) hb (ix2 p q) = _
  rw [shapeCast_self, broadcastTo_1b_ab_apply]

/-- The positive part of a matrix plus a bias row, at (p, q). -/
theorem relu_bias_row_apply (Z : FVec Ideal ⟨2, ![a, b]⟩ .f32) (x : FVec Ideal ⟨2, ![1, b]⟩ .f32)
    (hc : (⟨2, ![1, b]⟩ : Shape).ShapeCasts ⟨2, ![1, b]⟩) (hb : (⟨2, ![1, b]⟩ : Shape).Broadcasts ⟨2, ![a, b]⟩)
    (p : Fin a) (q : Fin b) :
    maximumf (addf Z (broadcastTo ⟨2, ![a, b]⟩ (shapeCast ⟨2, ![1, b]⟩ x hc) hb))
        (broadcast ⟨2, ![a, b]⟩ (FloatOps.ofBits (F := Ideal) .f32 0x00000000#32)) (ix2 p q)
      = max (Z (ix2 p q) + x (ix2 (0 : Fin 1) q)) 0 := by
  show max (addf Z (broadcastTo ⟨2, ![a, b]⟩ (shapeCast ⟨2, ![1, b]⟩ x hc) hb) (ix2 p q))
      (Ideal.ofBits .f32 0x00000000#32) = _
  rw [add_bias_row_apply, Ideal.ofBits_zero_f32]

end Cert.DenseBody

end
-- ==== Proof.Val1.lean ====
/-
  Region 1 (the first layer's activation fused with the second layer's feature map): the output array after the region,
  as one function of the region's input arrays. The grid has 50 points; point t loads rows [10000 t, 10000 t + 10000) of
  the aggregated features, the one bias row and the whole 64 x 64 weight, and writes back the product of
  max (z + b, 0) with the weight for those rows. The 50 row blocks tile the 500000 rows, so the array ends holding the
  sum over k of max (Z (n, k) + b k, 0) * W (k, f) at every (n, f).
-/
import proofs.«158527_j87737591923132_1_alg».proof.Proof.Gen.KernelIdeal.Frame
import proofs.«158527_j87737591923132_1_alg».proof.Proof.Spec
import proofs.«158527_j87737591923132_1_alg».proof.Proof.LibMatmulForms
import proofs.«158527_j87737591923132_1_alg».proof.Proof.LibDenseBody
import Idealize.ShloMosaic.Lib.Pipeline.Value
import Idealize.ShloMosaic.Lib.ValueLayout

set_option maxRecDepth 16384

noncomputable section

open scoped BigOperators

namespace Cert.KernelIdeal.Val1

open Cert.KernelIdeal Cert.KernelIdeal.Gen Cert.GcnSpec
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an index: the activated row of the left block against the column of the weight. -/
theorem pay_apply (x0 : Vec Ideal S10000x64 .f32) (x1 : Vec Ideal S1x64 .f32) (x2 : Vec Ideal S64x64 .f32)
    (j : S10000x64.Idx) :
    k1_pay1 (F := Ideal) x0 x1 x2 j
      = ∑ k : Fin 64, max (x0 (ix2 (j 0) k) + x1 (ix2 (0 : Fin 1) k)) 0 * x2 (ix2 k (j 1)) := by
  obtain ⟨p, q, rfl⟩ : ∃ (p : Fin 10000) (q : Fin 64), j = ix2 p q := ⟨j 0, j 1, eq_ix2 j⟩
  unfold k1_pay1
  refine (MatmulForms.matmul_zero_mm_apply dot_S10000x64_S64x64_S10000x64_1_0_0_1_n_n rfl rfl rfl rfl rfl rfl none _ _ p q).trans ?_
  refine Finset.sum_congr rfl fun k _ => ?_
  refine congrArg (· * x2 (ix2 k q)) ?_
  refine (DenseBody.relu_bias_row_apply _ x1 shapeCasts_S1x64_S1x64 broadcasts_S1x64_S10000x64 p k).trans ?_
  rw [shapeCast_self]

/-- The index maps over the grid: the row-block windows sit at block (t, 0), the bias row and the weight at (0, 0). -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- What point t writes back is block t of the whole-array function. -/
theorem flushed_eq (c : Dev nD) (t : Fin cfg1.N) :
    (dat1 V c).flushed 3 t = ((cfg1.win 3).blk t).view.read (Elt Ideal)
      (ChebAlgebra.mm (reluBiasRow (V c main_v45) (V c main_v46)) (V c main_arg6)) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  obtain ⟨e0, e1, e2, e3, e4, e5, e6, e7⟩ := idx_facts t
  funext j
  refine (pay_apply (iblk1 V c 0 t) (iblk1 V c 1 t) (iblk1 V c 2 t) j).trans ?_
  let Z : S500000x64.Idx → EReal := V c main_v45
  let b : S1x64.Idx → EReal := V c main_v46
  let W : S64x64.Idx → EReal := V c main_arg6
  show ∑ k : Fin 64, max (Z (((cfg1.win 0).blk t).view.emb (ix2 (j 0) k))
          + b (((cfg1.win 1).blk t).view.emb (ix2 (0 : Fin 1) k))) 0 * W (((cfg1.win 2).blk t).view.emb (ix2 k (j 1)))
      = ∑ k : Fin 64, max (Z (ix2 ((((cfg1.win 3).blk t).view.emb j) 0) k) + b (ix2 (0 : Fin 1) k)) 0
          * W (ix2 k ((((cfg1.win 3).blk t).view.emb j) 1))
  refine Finset.sum_congr rfl fun k _ => ?_
  have h0 : ((cfg1.win 0).blk t).view.emb (ix2 (j 0) k) = ix2 ((((cfg1.win 3).blk t).view.emb j) 0) k := by
    funext a; apply Fin.ext
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 64 + 1 * k.val = k.val; omega
  have h2 : ((cfg1.win 2).blk t).view.emb (ix2 k (j 1)) = ix2 k ((((cfg1.win 3).blk t).view.emb j) 1) := by
    funext a; apply Fin.ext
    match a with
    | ⟨0, _⟩ => show win1_2.index t (0 : Fin 2) * 64 + 1 * k.val = k.val; omega
    | ⟨1, _⟩ => show win1_2.index t (1 : Fin 2) * 64 + 1 * (j 1).val = win1_3.index t (1 : Fin 2) * 64 + 1 * (j 1).val; omega
  rw [h0, h1, h2]
  rfl

/-- An index of the array is in point t's block iff each coordinate is in the block's range on its axis. -/
theorem mem_blk (t : Fin cfg1.N) (i : S500000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v47).slice (win1_3.rect t)).set ↔ _
  rw [View.set_slice_whole, Rect.mem_set_unit]
  exact Iff.rfl

/-- Row n lies in the block of point n / 10000. -/
theorem cover (i : S500000x64.Idx) :
    ∃ t : Fin cfg1.N, (cfg1.win 3).flush t = true ∧ i ∈ ((cfg1.win 3).blk t).view.set := by
  have hi0 : (i 0).val < 500000 := (i 0).isLt
  have hi1 : (i 1).val < 64 := (i 1).isLt
  have hN : grid1.N = 50 := N_1
  have ht : (i 0).val / 10000 < grid1.N := by omega
  obtain ⟨e0, e1, e2, e3, e4, e5, e6, e7⟩ := idx_facts ⟨(i 0).val / 10000, ht⟩
  refine ⟨⟨(i 0).val / 10000, ht⟩, flush1_3 _, ?_⟩
  rw [mem_blk]
  intro a
  match a with
  | ⟨0, _⟩ =>
    show win1_3.index ⟨(i 0).val / 10000, ht⟩ (0 : Fin 2) * 10000 ≤ (i 0).val
      ∧ (i 0).val < win1_3.index ⟨(i 0).val / 10000, ht⟩ (0 : Fin 2) * 10000 + 10000
    rw [e6]
    show (i 0).val / 10000 * 10000 ≤ (i 0).val ∧ (i 0).val < (i 0).val / 10000 * 10000 + 10000
    omega
  | ⟨1, _⟩ =>
    show win1_3.index ⟨(i 0).val / 10000, ht⟩ (1 : Fin 2) * 64 ≤ (i 1).val
      ∧ (i 1).val < win1_3.index ⟨(i 0).val / 10000, ht⟩ (1 : Fin 2) * 64 + 64
    omega

/-- The output array after the region. -/
theorem final (c : Dev nD) :
    (dat1 V c).arrAt 3 cfg1.N
      = ChebAlgebra.mm (reluBiasRow (V c main_v45) (V c main_v46)) (V c main_arg6) :=
  (dat1 V c).arrAt_eq_of_cover 3 _ (fun t _ => flushed_eq V c t) cover

end Cert.KernelIdeal.Val1

end
-- ==== Proof.Val2.lean ====
/-
  Region 2 (the second graph layer's activation): the output array after the region, as one function of the region's
  input arrays. The grid has 50 points; point t loads rows [10000 t, 10000 t + 10000) of the aggregated features and
  the one bias row, and writes back max (z + b, 0) for those rows. The 50 row blocks tile the 500000 rows, so the array
  ends holding max (Z (n, f) + b f, 0) at every (n, f).
-/
import proofs.«158527_j87737591923132_1_alg».proof.Proof.Gen.KernelIdeal.Frame
import proofs.«158527_j87737591923132_1_alg».proof.Proof.Spec
import Idealize.ShloMosaic.Lib.Pipeline.Value
import Idealize.ShloMosaic.Lib.ValueLayout

set_option maxRecDepth 16384

noncomputable section

namespace Cert.KernelIdeal.Val2

open Cert.KernelIdeal Cert.KernelIdeal.Gen Cert.GcnSpec
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an index: the loaded entry plus the bias row's entry of that column, then the positive
    part. -/
theorem pay_apply (x0 : Vec Ideal S10000x64 .f32) (x1 : Vec Ideal S1x64 .f32) (j : S10000x64.Idx) :
    k2_pay1 (F := Ideal) x0 x1 j = max (x0 j + x1 (ix2 (0 : Fin 1) (j 1))) 0 := by
  obtain ⟨p, q, rfl⟩ : ∃ (p : Fin 10000) (q : Fin 64), j = ix2 p q := ⟨j 0, j 1, eq_ix2 j⟩
  unfold k2_pay1
  show max (shapeCast S10000x64 x0 shapeCasts_S10000x64_S10000x64 (ix2 p q)
      + broadcastTo S10000x64 (shapeCast S1x64 x1 shapeCasts_S1x64_S1x64) broadcasts_S1x64_S10000x64 (ix2 p q))
      (Ideal.ofBits .f32 0x00000000#32) = _
  rw [shapeCast_self, shapeCast_self, broadcastTo_1b_ab_apply, Ideal.ofBits_zero_f32]

/-- The index maps over the grid: the row-block windows sit at block (t, 0), the bias row at block (0, 0). -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of the whole-array function. -/
theorem flushed_eq (c : Dev nD) (t : Fin cfg2.N) :
    (dat2 V c).flushed 2 t = ((cfg2.win 2).blk t).view.read (Elt Ideal)
      (reluBiasRow (V c main_v64) (V c main_v65)) := by
  show (cfg2.win 2).cut (grid2.coords t) ((dat2 V c).after 2 t) = _
  rw [after2_2]
  unfold out2_2
  rw [View.canon_unit_zero hz]
  simp only [View.ld_unit_zero (S := S10000x64) hz, View.ld_unit_zero (S := S1x64) hz]
  obtain ⟨e0, e1, e2, e3, e4, e5⟩ := idx_facts t
  funext j
  refine (pay_apply (iblk2 V c 0 t) (iblk2 V c 1 t) j).trans ?_
  let Z : S500000x64.Idx → EReal := V c main_v64
  let b : S1x64.Idx → EReal := V c main_v65
  show max (Z (((cfg2.win 0).blk t).view.emb j) + b (((cfg2.win 1).blk t).view.emb (ix2 (0 : Fin 1) (j 1)))) 0
      = max (Z (((cfg2.win 2).blk t).view.emb j) + b (ix2 (0 : Fin 1) ((((cfg2.win 2).blk t).view.emb j) 1))) 0
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix2 (0 : Fin 1) (j 1))
      = ix2 (0 : Fin 1) ((((cfg2.win 2).blk t).view.emb j) 1) := by
    funext a; apply Fin.ext
    match a with
    | ⟨0, _⟩ => show win2_1.index t (0 : Fin 2) * 1 + 1 * 0 = 0; omega
    | ⟨1, _⟩ => show win2_1.index t (1 : Fin 2) * 64 + 1 * (j 1).val = win2_2.index t (1 : Fin 2) * 64 + 1 * (j 1).val; omega
  rw [h0, h1]
  rfl

/-- An index of the array is in point t's block iff each coordinate is in the block's range on its axis. -/
theorem mem_blk (t : Fin cfg2.N) (i : S500000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v66).slice (win2_2.rect t)).set ↔ _
  rw [View.set_slice_whole, Rect.mem_set_unit]
  exact Iff.rfl

/-- Row n lies in the block of point n / 10000. -/
theorem cover (i : S500000x64.Idx) :
    ∃ t : Fin cfg2.N, (cfg2.win 2).flush t = true ∧ i ∈ ((cfg2.win 2).blk t).view.set := by
  have hi0 : (i 0).val < 500000 := (i 0).isLt
  have hi1 : (i 1).val < 64 := (i 1).isLt
  have hN : grid2.N = 50 := N_2
  have ht : (i 0).val / 10000 < grid2.N := by omega
  obtain ⟨e0, e1, e2, e3, e4, e5⟩ := idx_facts ⟨(i 0).val / 10000, ht⟩
  refine ⟨⟨(i 0).val / 10000, ht⟩, flush2_2 _, ?_⟩
  rw [mem_blk]
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    rw [e4]
    show (i 0).val / 10000 * 10000 ≤ (i 0).val ∧ (i 0).val < (i 0).val / 10000 * 10000 + 10000
    omega
  | ⟨1, _⟩ =>
    show win2_2.index ⟨(i 0).val / 10000, ht⟩ (1 : Fin 2) * 64 ≤ (i 1).val
      ∧ (i 1).val < win2_2.index ⟨(i 0).val / 10000, ht⟩ (1 : Fin 2) * 64 + 64
    omega

/-- The output array after the region. -/
theorem final (c : Dev nD) :
    (dat2 V c).arrAt 2 cfg2.N = reluBiasRow (V c main_v64) (V c main_v65) :=
  (dat2 V c).arrAt_eq_of_cover 2 _ (fun t _ => flushed_eq V c t) cover

end Cert.KernelIdeal.Val2

end
-- ==== Proof.Val3.lean ====
/-
  Region 3 (the pair regressor): the output array after the region, as one function of the region's input arrays. The
  grid has 10 points; point t loads rows [5000 t, 5000 t + 5000) of the pair features, both weights and both bias rows
  whole, and writes back, for those rows, the hidden layer max (P W1 + b1, 0) multiplied by the second weight, plus the
  second bias. The 10 row blocks tile the 50000 rows, so the array ends holding, at every (n, f),
  the sum over k of max ((sum over l of P (n, l) * W1 (l, k)) + b1 k, 0) * W2 (k, f), plus b2 f.
-/
import proofs.«158527_j87737591923132_1_alg».proof.Proof.Gen.KernelIdeal.Frame
import proofs.«158527_j87737591923132_1_alg».proof.Proof.Spec
import proofs.«158527_j87737591923132_1_alg».proof.Proof.LibMatmulForms
import proofs.«158527_j87737591923132_1_alg».proof.Proof.LibDenseBody
import Idealize.ShloMosaic.Lib.Pipeline.Value
import Idealize.ShloMosaic.Lib.ValueLayout

set_option maxRecDepth 16384

noncomputable section

open scoped BigOperators

namespace Cert.KernelIdeal.Val3

open Cert.KernelIdeal Cert.KernelIdeal.Gen Cert.GcnSpec
open Idealize.ShloMosaic Idealize.ShloMosaic.TcCoe Idealize.ShloMosaic.ValueIdx Idealize.SL.Sem

variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an index: the hidden row against the column of the second weight, plus the bias. -/
theorem pay_apply (x0 : Vec Ideal S5000x128 .f32) (x1 : Vec Ideal S128x256 .f32) (x2 : Vec Ideal S1x256 .f32)
    (x3 : Vec Ideal S256x1 .f32) (x4 : Vec Ideal S1x1 .f32) (j : S5000x1.Idx) :
    k3_pay1 (F := Ideal) x0 x1 x2 x3 x4 j
      = (∑ k : Fin 256, max ((∑ l : Fin 128, x0 (ix2 (j 0) l) * x1 (ix2 l k)) + x2 (ix2 (0 : Fin 1) k)) 0
          * x3 (ix2 k (j 1))) + x4 (ix2 (0 : Fin 1) (j 1)) := by
  obtain ⟨p, q, rfl⟩ : ∃ (p : Fin 5000) (q : Fin 1), j = ix2 p q := ⟨j 0, j 1, eq_ix2 j⟩
  unfold k3_pay1
  refine (DenseBody.add_bias_row_apply _ x4 shapeCasts_S1x1_S1x1 broadcasts_S1x1_S5000x1 p q).trans ?_
  refine congrArg (· + x4 (ix2 (0 : Fin 1) q)) ?_
  refine (MatmulForms.matmul_zero_mm_apply dot_S5000x256_S256x1_S5000x1_1_0_0_1_n_n rfl rfl rfl rfl rfl rfl none _ _ p q).trans ?_
  refine Finset.sum_congr rfl fun k _ => ?_
  refine congrArg (· * x3 (ix2 k q)) ?_
  refine (DenseBody.relu_bias_row_apply _ x2 shapeCasts_S1x256_S1x256 broadcasts_S1x256_S5000x256 p k).trans ?_
  refine congrArg (fun z => max (z + x2 (ix2 (0 : Fin 1) k)) 0) ?_
  refine (MatmulForms.matmul_zero_mm_apply dot_S5000x128_S128x256_S5000x256_1_0_0_1_n_n rfl rfl rfl rfl rfl rfl none _ _ p k).trans ?_
  refine Finset.sum_congr rfl fun l _ => ?_
  refine congrArg (· * x1 (ix2 l k)) ?_
  exact congrFun (shapeCast_self x0 shapeCasts_S5000x128_S5000x128) (ix2 p l)

/-- The index maps over the grid: the row-block windows sit at block (t, 0), the weights and bias rows at (0, 0). -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0 :=
  (by decide +kernel : ∀ t : Fin grid3.N, _)

/-- What point t writes back is block t of the whole-array function. -/
theorem flushed_eq (c : Dev nD) (t : Fin cfg3.N) :
    (dat3 V c).flushed 5 t = ((cfg3.win 5).blk t).view.read (Elt Ideal)
      (addBiasRow (ChebAlgebra.mm (reluBiasRow (ChebAlgebra.mm (V c main_v97) (V c main_arg8)) (V c main_v98))
          (V c main_arg10)) (V c main_v99)) := by
  show (cfg3.win 5).cut (grid3.coords t) ((dat3 V c).after 5 t) = _
  rw [after3_5]
  unfold out3_5
  rw [View.canon_unit_zero hz]
  simp only [View.ld_unit_zero (S := S5000x128) hz, View.ld_unit_zero (S := S128x256) hz,
    View.ld_unit_zero (S := S1x256) hz, View.ld_unit_zero (S := S256x1) hz, View.ld_unit_zero (S := S1x1) hz]
  obtain ⟨e0, e1, e2, e3, e4, e5, e6, e7, e8, e9, e10, e11⟩ := idx_facts t
  funext j
  refine (pay_apply (iblk3 V c 0 t) (iblk3 V c 1 t) (iblk3 V c 2 t) (iblk3 V c 3 t) (iblk3 V c 4 t) j).trans ?_
  let P : S50000x128.Idx → EReal := V c main_v97
  let W1 : S128x256.Idx → EReal := V c main_arg8
  let b1 : S1x256.Idx → EReal := V c main_v98
  let W2 : S256x1.Idx → EReal := V c main_arg10
  let b2 : S1x1.Idx → EReal := V c main_v99
  show (∑ k : Fin 256, max ((∑ l : Fin 128, P (((cfg3.win 0).blk t).view.emb (ix2 (j 0) l))
            * W1 (((cfg3.win 1).blk t).view.emb (ix2 l k))) + b1 (((cfg3.win 2).blk t).view.emb (ix2 (0 : Fin 1) k))) 0
          * W2 (((cfg3.win 3).blk t).view.emb (ix2 k (j 1)))) + b2 (((cfg3.win 4).blk t).view.emb (ix2 (0 : Fin 1) (j 1)))
      = (∑ k : Fin 256, max ((∑ l : Fin 128, P (ix2 ((((cfg3.win 5).blk t).view.emb j) 0) l) * W1 (ix2 l k))
            + b1 (ix2 (0 : Fin 1) k)) 0 * W2 (ix2 k ((((cfg3.win 5).blk t).view.emb j) 1)))
          + b2 (ix2 (0 : Fin 1) ((((cfg3.win 5).blk t).view.emb j) 1))
  have g0 : ∀ l : Fin 128, ((cfg3.win 0).blk t).view.emb (ix2 (j 0) l) = ix2 ((((cfg3.win 5).blk t).view.emb j) 0) l := by
    intro l; funext a; apply Fin.ext
    match a with
    | ⟨0, _⟩ => show win3_0.index t (0 : Fin 2) * 5000 + 1 * (j 0).val = win3_5.index t (0 : Fin 2) * 5000 + 1 * (j 0).val; omega
    | ⟨1, _⟩ => show win3_0.index t (1 : Fin 2) * 128 + 1 * l.val = l.val; omega
  have g1 : ∀ (l : Fin 128) (k : Fin 256), ((cfg3.win 1).blk t).view.emb (ix2 l k) = ix2 l k := by
    intro l k; funext a; apply Fin.ext
    match a with
    | ⟨0, _⟩ => show win3_1.index t (0 : Fin 2) * 128 + 1 * l.val = l.val; omega
    | ⟨1, _⟩ => show win3_1.index t (1 : Fin 2) * 256 + 1 * k.val = k.val; omega
  have g2 : ∀ k : Fin 256, ((cfg3.win 2).blk t).view.emb (ix2 (0 : Fin 1) k) = ix2 (0 : Fin 1) k := by
    intro k; funext a; apply Fin.ext
    match a with
    | ⟨0, _⟩ => show win3_2.index t (0 : Fin 2) * 1 + 1 * 0 = 0; omega
    | ⟨1, _⟩ => show win3_2.index t (1 : Fin 2) * 256 + 1 * k.val = k.val; omega
  have g3 : ∀ k : Fin 256, ((cfg3.win 3).blk t).view.emb (ix2 k (j 1)) = ix2 k ((((cfg3.win 5).blk t).view.emb j) 1) := by
    intro k; funext a; apply Fin.ext
    match a with
    | ⟨0, _⟩ => show win3_3.index t (0 : Fin 2) * 256 + 1 * k.val = k.val; omega
    | ⟨1, _⟩ => show win3_3.index t (1 : Fin 2) * 1 + 1 * (j 1).val = win3_5.index t (1 : Fin 2) * 1 + 1 * (j 1).val; omega
  have g4 : ((cfg3.win 4).blk t).view.emb (ix2 (0 : Fin 1) (j 1)) = ix2 (0 : Fin 1) ((((cfg3.win 5).blk t).view.emb j) 1) := by
    funext a; apply Fin.ext
    match a with
    | ⟨0, _⟩ => show win3_4.index t (0 : Fin 2) * 1 + 1 * 0 = 0; omega
    | ⟨1, _⟩ => show win3_4.index t (1 : Fin 2) * 1 + 1 * (j 1).val = win3_5.index t (1 : Fin 2) * 1 + 1 * (j 1).val; omega
  simp only [g0, g1, g2, g3, g4]
  rfl

/-- An index of the array is in point t's block iff each coordinate is in the block's range on its axis. -/
theorem mem_blk (t : Fin cfg3.N) (i : S50000x1.Idx) :
    i ∈ ((cfg3.win 5).blk t).view.set ↔ ∀ a : Fin 2, win3_5.index t a * S5000x1.size a ≤ (i a).val
      ∧ (i a).val < win3_5.index t a * S5000x1.size a + S5000x1.size a := by
  show i ∈ ((View.whole main_v100).slice (win3_5.rect t)).set ↔ _
  rw [View.set_slice_whole, Rect.mem_set_unit]
  exact Iff.rfl

/-- Row n lies in the block of point n / 5000. -/
theorem cover (i : S50000x1.Idx) :
    ∃ t : Fin cfg3.N, (cfg3.win 5).flush t = true ∧ i ∈ ((cfg3.win 5).blk t).view.set := by
  have hi0 : (i 0).val < 50000 := (i 0).isLt
  have hi1 : (i 1).val < 1 := (i 1).isLt
  have hN : grid3.N = 10 := N_3
  have ht : (i 0).val / 5000 < grid3.N := by omega
  obtain ⟨e0, e1, e2, e3, e4, e5, e6, e7, e8, e9, e10, e11⟩ := idx_facts ⟨(i 0).val / 5000, ht⟩
  refine ⟨⟨(i 0).val / 5000, ht⟩, flush3_5 _, ?_⟩
  rw [mem_blk]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [e10]
    show (i 0).val / 5000 * 5000 ≤ (i 0).val ∧ (i 0).val < (i 0).val / 5000 * 5000 + 5000
    omega
  | ⟨1, _⟩ =>
    show win3_5.index ⟨(i 0).val / 5000, ht⟩ (1 : Fin 2) * 1 ≤ (i 1).val
      ∧ (i 1).val < win3_5.index ⟨(i 0).val / 5000, ht⟩ (1 : Fin 2) * 1 + 1
    omega

/-- The output array after the region. -/
theorem final (c : Dev nD) :
    (dat3 V c).arrAt 5 cfg3.N
      = addBiasRow (ChebAlgebra.mm (reluBiasRow (ChebAlgebra.mm (V c main_v97) (V c main_arg8)) (V c main_v98))
          (V c main_arg10)) (V c main_v99) :=
  (dat3 V c).arrAt_eq_of_cover 5 _ (fun t _ => flushed_eq V c t) cover

end Cert.KernelIdeal.Val3

end
-- ==== Proof.RefStages.lean ====
/-
  The reference program's dense stages, in the shared spelling: its first feature map is the matrix product of the
  node features and the first weight; its second feature map is the product of the first layer's activation
  max (agg + b1, 0) with the second weight; its final node embedding is max (agg + b2, 0); and its result is the hidden
  layer max (P Wr1 + br1, 0) times the second regressor weight, plus the second bias.
-/
import proofs.«158527_j87737591923132_1_alg».proof.Proof.Gen.ReferenceIdeal.Read
import proofs.«158527_j87737591923132_1_alg».proof.Proof.Spec

set_option maxRecDepth 16384

noncomputable section

namespace Cert.ReferenceIdeal.GcnStages

open Cert.ReferenceIdeal Cert.ReferenceIdeal.Gen Cert.ReferenceIdeal.Read Cert.GcnSpec
open Idealize.ShloMosaic Idealize.ShloMosaic.ValueIdx

variable (x0 : (⟨S500000x64, .f32⟩ : BufTy).Contents (Elt Ideal)) (x1 : (⟨S2x2000000, .i32⟩ : BufTy).Contents (Elt Ideal)) (x2 : (⟨S500000, .i32⟩ : BufTy).Contents (Elt Ideal))
  (x3 : (⟨S2x50000, .i32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal))
  (x7 : (⟨S64, .f32⟩ : BufTy).Contents (Elt Ideal)) (x8 : (⟨S128x256, .f32⟩ : BufTy).Contents (Elt Ideal)) (x9 : (⟨S256, .f32⟩ : BufTy).Contents (Elt Ideal)) (x10 : (⟨S256x1, .f32⟩ : BufTy).Contents (Elt Ideal))
  (x11 : (⟨S1, .f32⟩ : BufTy).Contents (Elt Ideal))

/-- The first feature map is a matrix product. -/
theorem v4_eq : val_main_v4 (F := Ideal) x0 x4 = ChebAlgebra.mm x0 x4 :=
  HostForms.dotGeneral_eq_mm dot_S500000x64_S64x64_S500000x64_1_0_0_1_n_n rfl rfl rfl rfl rfl rfl none x0 x4

/-- The second feature map is the first layer's activation times the second weight. -/
theorem v50_eq : val_main_v50 (F := Ideal) x0 x1 x4 x5 x6
    = ChebAlgebra.mm (reluBias (val_main_v45 (F := Ideal) x0 x1 x4) x5) x6 :=
  (HostForms.dotGeneral_eq_mm dot_S500000x64_S64x64_S500000x64_1_0_0_1_n_n rfl rfl rfl rfl rfl rfl none _ x6).trans
    (congrArg (ChebAlgebra.mm · x6)
      (host_reluBias (val_main_v45 (F := Ideal) x0 x1 x4) x5 bcast_S64_S1x64_1 bcast_S1x64_S500000x64_0_1 bcast_S_S500000x64))

/-- The final node embedding is the second layer's activation. -/
theorem v95_eq : val_main_v95 (F := Ideal) x0 x1 x4 x5 x6 x7
    = reluBias (val_main_v91 (F := Ideal) x0 x1 x4 x5 x6) x7 :=
  host_reluBias (val_main_v91 (F := Ideal) x0 x1 x4 x5 x6) x7 bcast_S64_S1x64_1 bcast_S1x64_S500000x64_0_1 bcast_S_S500000x64

/-- The result is the two-layer regressor of the pair features. -/
theorem v135_eq : val_main_v135 (F := Ideal) x0 x1 x2 x3 x4 x5 x6 x7 x8 x9 x10 x11
    = addBias (ChebAlgebra.mm (reluBias (ChebAlgebra.mm (val_main_v126 (F := Ideal) x0 x1 x2 x3 x4 x5 x6 x7) x8) x9) x10) x11 :=
  (host_addBias (val_main_v132 (F := Ideal) x0 x1 x2 x3 x4 x5 x6 x7 x8 x9 x10) x11 bcast_S1_S1x1_1 bcast_S1x1_S50000x1_0_1).trans
    (congrArg (addBias · x11)
      ((HostForms.dotGeneral_eq_mm dot_S50000x256_S256x1_S50000x1_1_0_0_1_n_n rfl rfl rfl rfl rfl rfl none _ x10).trans
        (congrArg (ChebAlgebra.mm · x10)
          ((host_reluBias (val_main_v127 (F := Ideal) x0 x1 x2 x3 x4 x5 x6 x7 x8) x9 bcast_S256_S1x256_1
              bcast_S1x256_S50000x256_0_1 bcast_S_S50000x256).trans
            (congrArg (reluBias · x9)
              (HostForms.dotGeneral_eq_mm dot_S50000x128_S128x256_S50000x256_1_0_0_1_n_n rfl rfl rfl rfl rfl rfl none _ x8))))))

/-- The reference computes the edge normalisation and the inverse degree once per layer, from the same edge list:
    the second copies are the first. -/
theorem norm_again : val_main_v72 (F := Ideal) x1 = val_main_v26 (F := Ideal) x1 := rfl
theorem inv_deg_again : val_main_v87 (F := Ideal) x1 = val_main_v41 (F := Ideal) x1 := rfl

end Cert.ReferenceIdeal.GcnStages

end
-- ==== Proof.KValue.lean ====
/-
  The kernel program's result as the reference's result, stage by stage. Walking the program's segments in order:

  * region 0 leaves the product of the node features and the first weight: the reference's first feature map;
  * stretch 1 aggregates it over the edges exactly as the reference does, so it leaves the reference's first aggregate;
  * region 1 leaves max (aggregate + b1, 0) times the second weight: the reference's second feature map;
  * stretch 2 leaves the reference's second aggregate (the reference recomputes the edge normalisation and the inverse
    degree from the same edge list; the copies are equal);
  * region 2 leaves max (aggregate + b2, 0): the reference's node embedding;
  * stretch 3 pools it per graph and gathers the pairs as the reference does: the reference's pair features;
  * region 3 leaves max (P Wr1 + br1, 0) Wr2 + br2: the reference's result.

  Nothing here needs the inputs to be finite: the two programs apply the same operations to the same values.
-/
import proofs.«158527_j87737591923132_1_alg».proof.Proof.Gen.KernelIdeal.Frame
import proofs.«158527_j87737591923132_1_alg».proof.Proof.Gen.ReferenceIdeal.Read
import proofs.«158527_j87737591923132_1_alg».proof.Proof.Spec
import proofs.«158527_j87737591923132_1_alg».proof.Proof.Keep
import proofs.«158527_j87737591923132_1_alg».proof.Proof.HostA1
import proofs.«158527_j87737591923132_1_alg».proof.Proof.HostA2
import proofs.«158527_j87737591923132_1_alg».proof.Proof.HostB
import proofs.«158527_j87737591923132_1_alg».proof.Proof.HostC
import proofs.«158527_j87737591923132_1_alg».proof.Proof.HostD
import proofs.«158527_j87737591923132_1_alg».proof.Proof.Val0
import proofs.«158527_j87737591923132_1_alg».proof.Proof.Val1
import proofs.«158527_j87737591923132_1_alg».proof.Proof.Val2
import proofs.«158527_j87737591923132_1_alg».proof.Proof.Val3
import proofs.«158527_j87737591923132_1_alg».proof.Proof.RefStages
import Idealize.ShloMosaic.Lib.StableHlo.Run
import Idealize.ShloMosaic.Lib.Pipeline.Value
import Idealize.ShloMosaic.Lib.ValueLayout

set_option maxRecDepth 16384

noncomputable section

namespace Cert.KernelIdeal.GcnValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

set_option quotPrecheck false

local notation "x0" => m ((c : Thread nD τ).loc main_arg0)
local notation "x1" => m ((c : Thread nD τ).loc main_arg1)
local notation "x2" => m ((c : Thread nD τ).loc main_arg2)
local notation "x3" => m ((c : Thread nD τ).loc main_arg3)
local notation "x4" => m ((c : Thread nD τ).loc main_arg4)
local notation "x5" => m ((c : Thread nD τ).loc main_arg5)
local notation "x6" => m ((c : Thread nD τ).loc main_arg6)
local notation "x7" => m ((c : Thread nD τ).loc main_arg7)
local notation "x8" => m ((c : Thread nD τ).loc main_arg8)
local notation "x9" => m ((c : Thread nD τ).loc main_arg9)
local notation "x10" => m ((c : Thread nD τ).loc main_arg10)
local notation "x11" => m ((c : Thread nD τ).loc main_arg11)

open Cert.GcnSpec Cert.ReferenceIdeal.Read Cert.ReferenceIdeal.GcnStages

/-! ## What the first stretch wrote, where the later stretches read it -/

theorem src_2 : W2 m ρ c (Proc.devRef .tc main_v1) = val_main_v1 (F := Ideal) x1 :=
  (GcnKeep.v1_2 m ρ c).trans (HostA2.v1_1 m ρ c)
theorem dst_2 : W2 m ρ c (Proc.devRef .tc main_v3) = val_main_v3 (F := Ideal) x1 :=
  (GcnKeep.v3_2 m ρ c).trans (HostA2.v3_1 m ρ c)
theorem norm_2 : W2 m ρ c (Proc.devRef .tc main_v25) = val_main_v26 (F := Ideal) x1 :=
  (GcnKeep.v25_2 m ρ c).trans (HostA1.v25_1 m ρ c)
theorem invdeg_2 : W2 m ρ c (Proc.devRef .tc main_v27) = val_main_v41 (F := Ideal) x1 :=
  (GcnKeep.v27_2 m ρ c).trans (HostA2.v27_1 m ρ c)
theorem src_4 : W4 m ρ c (Proc.devRef .tc main_v1) = val_main_v1 (F := Ideal) x1 :=
  (GcnKeep.v1_4 m ρ c).trans (HostA2.v1_1 m ρ c)
theorem dst_4 : W4 m ρ c (Proc.devRef .tc main_v3) = val_main_v3 (F := Ideal) x1 :=
  (GcnKeep.v3_4 m ρ c).trans (HostA2.v3_1 m ρ c)
theorem norm_4 : W4 m ρ c (Proc.devRef .tc main_v25) = val_main_v72 (F := Ideal) x1 :=
  ((GcnKeep.v25_4 m ρ c).trans (HostA1.v25_1 m ρ c)).trans (norm_again x1).symm
theorem invdeg_4 : W4 m ρ c (Proc.devRef .tc main_v27) = val_main_v87 (F := Ideal) x1 :=
  ((GcnKeep.v27_4 m ρ c).trans (HostA2.v27_1 m ρ c)).trans (inv_deg_again x1).symm

/-! ## The segments in order -/

/-- Region 0 leaves the reference's first feature map. -/
theorem feat1 : W2 m ρ c (Proc.devRef .tc main_v28) = val_main_v4 (F := Ideal) x0 x4 := by
  refine (W2_arr m ρ c 2).trans ((Val0.final (V1 m ρ) c).trans ?_)
  have e0 : V1 m ρ c main_arg0 = x0 := GcnKeep.a0_1 m ρ c
  have e4 : V1 m ρ c main_arg4 = x4 := GcnKeep.a4_1 m ρ c
  rw [e0, e4]
  exact (v4_eq x0 x4).symm

/-- Stretch 1 leaves the reference's first aggregate. -/
theorem agg1 : W3 m ρ c (Proc.devRef .tc main_v45) = val_main_v45 (F := Ideal) x0 x1 x4 :=
  HostB.v45_3 m ρ c (feat1 m ρ c) (src_2 m ρ c) (dst_2 m ρ c) (norm_2 m ρ c) (invdeg_2 m ρ c)

/-- Region 1 leaves the reference's second feature map. -/
theorem feat2 : W4 m ρ c (Proc.devRef .tc main_v47) = val_main_v50 (F := Ideal) x0 x1 x4 x5 x6 := by
  refine (W4_arr m ρ c 3).trans ((Val1.final (V3 m ρ) c).trans ?_)
  have e45 : V3 m ρ c main_v45 = val_main_v45 (F := Ideal) x0 x1 x4 := agg1 m ρ c
  have e46 : V3 m ρ c main_v46 = shapeCast S1x64 x5 shapeCasts_S64_S1x64 := HostB.v46_3 m ρ c (GcnKeep.a5_2 m ρ c)
  have e6 : V3 m ρ c main_arg6 = x6 := GcnKeep.a6_3 m ρ c
  rw [e45, e46, e6, reluBiasRow_cast]
  exact (v50_eq x0 x1 x4 x5 x6).symm

/-- Stretch 2 leaves the reference's second aggregate. -/
theorem agg2 : W5 m ρ c (Proc.devRef .tc main_v64) = val_main_v91 (F := Ideal) x0 x1 x4 x5 x6 :=
  HostC.v64_5 m ρ c (feat2 m ρ c) (src_4 m ρ c) (dst_4 m ρ c) (norm_4 m ρ c) (invdeg_4 m ρ c)

/-- Region 2 leaves the reference's node embedding. -/
theorem embed : W6 m ρ c (Proc.devRef .tc main_v66) = val_main_v95 (F := Ideal) x0 x1 x4 x5 x6 x7 := by
  refine (W6_arr m ρ c 2).trans ((Val2.final (V5 m ρ) c).trans ?_)
  have e64 : V5 m ρ c main_v64 = val_main_v91 (F := Ideal) x0 x1 x4 x5 x6 := agg2 m ρ c
  have e65 : V5 m ρ c main_v65 = shapeCast S1x64 x7 shapeCasts_S64_S1x64 := HostC.v65_5 m ρ c (GcnKeep.a7_4 m ρ c)
  rw [e64, e65, reluBiasRow_cast]
  exact (v95_eq x0 x1 x4 x5 x6 x7).symm

/-- Stretch 3 leaves the reference's pair features. -/
theorem pairs : W7 m ρ c (Proc.devRef .tc main_v97) = val_main_v126 (F := Ideal) x0 x1 x2 x3 x4 x5 x6 x7 :=
  HostD.v97_7 m ρ c (embed m ρ c) (GcnKeep.a2_6 m ρ c) (GcnKeep.a3_6 m ρ c)

/-- Region 3 leaves the reference's result. -/
theorem result : W8 m ρ c (Proc.devRef .tc main_v100)
    = val_main_v135 (F := Ideal) x0 x1 x2 x3 x4 x5 x6 x7 x8 x9 x10 x11 := by
  refine (W8_arr m ρ c 5).trans ((Val3.final (V7 m ρ) c).trans ?_)
  have e97 : V7 m ρ c main_v97 = val_main_v126 (F := Ideal) x0 x1 x2 x3 x4 x5 x6 x7 := pairs m ρ c
  have e8 : V7 m ρ c main_arg8 = x8 := GcnKeep.a8_7 m ρ c
  have e98 : V7 m ρ c main_v98 = shapeCast S1x256 x9 shapeCasts_S256_S1x256 := HostD.v98_7 m ρ c (GcnKeep.a9_6 m ρ c)
  have e10 : V7 m ρ c main_arg10 = x10 := GcnKeep.a10_7 m ρ c
  have e99 : V7 m ρ c main_v99 = shapeCast S1x1 x11 shapeCasts_S1_S1x1 := HostD.v99_7 m ρ c (GcnKeep.a11_6 m ρ c)
  rw [e97, e8, e98, e10, e99, reluBiasRow_cast, addBiasRow_cast]
  exact (v135_eq x0 x1 x2 x3 x4 x5 x6 x7 x8 x9 x10 x11).symm

end Cert.KernelIdeal.GcnValue
end
-- ==== Proof.lean ====
/-
  A two-layer graph convolution, mean pooling per graph and a two-layer regressor on pairs of graphs: the kernel program
  (four grid regions for the dense layers among host operations for the sparse ones) against the plain reference.

  On the extended reals the two programs apply the same operations to the same values. The reference's matrix products,
  bias additions and positive parts are whole-array host operations; the kernel's are computed block of rows by block of
  rows, and the blocks tile the rows, so each region's output array is the reference's corresponding stage (the
  narrowing of a product's operands to a shorter float format is the identity on the extended reals, and each product
  accumulates from zero). The sparse operations between the regions (degrees, edge normalisation, neighbour aggregation,
  pooling, the pair gather) are spelled identically in both programs, so each stretch carries one reference stage to the
  next. The reference recomputes the normalisation per layer from the same edge list; the copies coincide. No property
  of the inputs is used.

  The three frames: the kernel programs' are their generated frame runs; the reference's is its run with the result
  forgotten. The idealization rewrote nothing, so `preserves` is trivial.
-/
import proofs.«158527_j87737591923132_1_alg».proof.Defs
import proofs.«158527_j87737591923132_1_alg».proof.Proof.Gen.Kernel
import proofs.«158527_j87737591923132_1_alg».proof.Proof.Gen.Kernel.Frame
import proofs.«158527_j87737591923132_1_alg».proof.Proof.Gen.KernelIdeal
import proofs.«158527_j87737591923132_1_alg».proof.Proof.Gen.KernelIdeal.Frame
import proofs.«158527_j87737591923132_1_alg».proof.Proof.Gen.ReferenceIdeal
import proofs.«158527_j87737591923132_1_alg».proof.Proof.Gen.Pre_finite_inputs
import proofs.«158527_j87737591923132_1_alg».proof.Proof.Gen.ReferenceIdeal.Run
import proofs.«158527_j87737591923132_1_alg».proof.Proof.Gen.ReferenceIdeal.Read
import proofs.«158527_j87737591923132_1_alg».proof.Proof.KRun
import proofs.«158527_j87737591923132_1_alg».proof.Proof.KValue
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the reference's last stage of the (agreeing) argument arrays. -/
theorem algebraic : Cert.algebraic_KernelIdeal_ReferenceIdeal := by
  intro m ρ m' ρ' _ hagree
  refine ⟨fun c => Cert.ReferenceIdeal.Read.val_main_v135 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.GcnValue.result m ρ c), (h c).2⟩)
      (Cert.KernelIdeal.GcnRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Read.val_main_v135_eq, a0, a1, a2, a3, a4, a5, a6, a7, a8, a9, a10, a11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
